-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x784 : Shape := ⟨2, ![8192, 784]⟩
abbrev S512x32 : Shape := ⟨2, ![512, 32]⟩
abbrev S784x256 : Shape := ⟨2, ![784, 256]⟩
abbrev S256 : Shape := ⟨1, ![256]⟩
abbrev S256x32 : Shape := ⟨2, ![256, 32]⟩
abbrev S32 : Shape := ⟨1, ![32]⟩
abbrev S32x256 : Shape := ⟨2, ![32, 256]⟩
abbrev S256x784 : Shape := ⟨2, ![256, 784]⟩
abbrev S784 : Shape := ⟨1, ![784]⟩
abbrev S_ : Shape := ⟨0, ![]⟩

class Facts : Prop where
  bcast_S_S8192x784 : S_.BroadcastsInDim S8192x784 (![] : Fin 0 → Fin S8192x784.rank)
  reducesTo_S8192x784_S_d0_1 : S8192x784.ReducesTo [0, 1] S_
  h_S_ : 0 < S_.numel
  bcast_S_S512x32 : S_.BroadcastsInDim S512x32 (![] : Fin 0 → Fin S512x32.rank)
  reducesTo_S512x32_S_d0_1 : S512x32.ReducesTo [0, 1] S_
  bcast_S_S784x256 : S_.BroadcastsInDim S784x256 (![] : Fin 0 → Fin S784x256.rank)
  reducesTo_S784x256_S_d0_1 : S784x256.ReducesTo [0, 1] S_
  bcast_S_S256 : S_.BroadcastsInDim S256 (![] : Fin 0 → Fin S256.rank)
  reducesTo_S256_S_d0 : S256.ReducesTo [0] S_
  bcast_S_S256x32 : S_.BroadcastsInDim S256x32 (![] : Fin 0 → Fin S256x32.rank)
  reducesTo_S256x32_S_d0_1 : S256x32.ReducesTo [0, 1] S_
  bcast_S_S32 : S_.BroadcastsInDim S32 (![] : Fin 0 → Fin S32.rank)
  reducesTo_S32_S_d0 : S32.ReducesTo [0] S_
  bcast_S_S32x256 : S_.BroadcastsInDim S32x256 (![] : Fin 0 → Fin S32x256.rank)
  reducesTo_S32x256_S_d0_1 : S32x256.ReducesTo [0, 1] S_
  bcast_S_S256x784 : S_.BroadcastsInDim S256x784 (![] : Fin 0 → Fin S256x784.rank)
  reducesTo_S256x784_S_d0_1 : S256x784.ReducesTo [0, 1] S_
  bcast_S_S784 : S_.BroadcastsInDim S784 (![] : Fin 0 → Fin S784.rank)
  reducesTo_S784_S_d0 : S784.ReducesTo [0] S_

variable [Facts]

def fn_part2 {F : FTy → Type} [FloatOps F] (main_arg7 : FVec F S256 .f32) (main_arg8 : FVec F S256x784 .f32) (main_arg9 : FVec F S784 .f32) (main_v33 : IVec S_ 1) : IVec S_ 1 :=
  let main_v34 : FVec F S256 .f32 := Host.absf main_arg7
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x784 .f32 := Host.absf main_arg8
  let main_cst_14 : FVec F S_ .f32 := constant S_ .f32 0x7F800000#32
  let main_v40 : FVec F S256x784 .f32 := broadcastInDim S256x784 ![] bcast_S_S256x784 main_cst_14
  let main_v41 : IVec S256x784 1 := cmpf .olt main_v39 main_v40
  let main_c_15 : IVec S_ 1 := constantI S_ 1 1#1
  let main_v42 : IVec S_ 1 := (fun x v => Host.reduce IntOp.andi x v reducesTo_S256x784_S_d0_1 h_S_) main_v41 main_c_15
  let main_v43 : IVec S_ 1 := andi main_v38 main_v42
  let main_v44 : FVec F S784 .f32 := Host.absf main_arg9
  let main_cst_16 : FVec F S_ .f32 := constant S_ .f32 0x7F800000#32
  let main_v45 : FVec F S784 .f32 := broadcastInDim S784 ![] bcast_S_S784 main_cst_16
  let main_v46 : IVec S784 1 := cmpf .olt main_v44 main_v45
  let main_c_17 : IVec S_ 1 := constantI S_ 1 1#1
  let main_v47 : IVec S_ 1 := (fun x v => Host.reduce IntOp.andi x v reducesTo_S784_S_d0 h_S_) main_v46 main_c_17
  let main_v48 : IVec S_ 1 := andi main_v43 main_v47
  main_v48

def fn_part1 {F : FTy → Type} [FloatOps F] (main_arg4 : FVec F S256x32 .f32) (main_arg5 : FVec F S32 .f32) (main_arg6 : FVec F S32x256 .f32) (main_arg7 : FVec F S256 .f32) (main_arg8 : FVec F S256x784 .f32) (main_arg9 : FVec F S784 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x32 .f32 := Host.absf main_arg4
  let main_cst_6 : FVec F S_ .f32 := constant S_ .f32 0x7F800000#32
  let main_v20 : FVec F S256x32 .f32 := broadcastInDim S256x32 ![] bcast_S_S256x32 main_cst_6
  let main_v21 : IVec S256x32 1 := cmpf .olt main_v19 main_v20
  let main_c_7 : IVec S_ 1 := constantI S_ 1 1#1
  let main_v22 : IVec S_ 1 := (fun x v => Host.reduce IntOp.andi x v reducesTo_S256x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x256 .f32 := Host.absf main_arg6
  let main_cst_10 : FVec F S_ .f32 := constant S_ .f32 0x7F800000#32
  let main_v30 : FVec F S32x256 .f32 := broadcastInDim S32x256 ![] bcast_S_S32x256 main_cst_10
  let main_v31 : IVec S32x256 1 := cmpf .olt main_v29 main_v30
  let main_c_11 : IVec S_ 1 := constantI S_ 1 1#1
  let main_v32 : IVec S_ 1 := (fun x v => Host.reduce IntOp.andi x v reducesTo_S32x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x784 .f32) (main_arg1 : FVec F S512x32 .f32) (main_arg2 : FVec F S784x256 .f32) (main_arg3 : FVec F S256 .f32) (main_arg4 : FVec F S256x32 .f32) (main_arg5 : FVec F S32 .f32) (main_arg6 : FVec F S32x256 .f32) (main_arg7 : FVec F S256 .f32) (main_arg8 : FVec F S256x784 .f32) (main_arg9 : FVec F S784 .f32) : IVec S_ 1 :=
  let main_v0 : FVec F S8192x784 .f32 := Host.absf main_arg0
  let main_cst : FVec F S_ .f32 := constant S_ .f32 0x7F800000#32
  let main_v1 : FVec F S8192x784 .f32 := broadcastInDim S8192x784 ![] bcast_S_S8192x784 main_cst
  let main_v2 : IVec S8192x784 1 := cmpf .olt main_v0 main_v1
  let main_c : IVec S_ 1 := constantI S_ 1 1#1
  let main_v3 : IVec S_ 1 := (fun x v => Host.reduce IntOp.andi x v reducesTo_S8192x784_S_d0_1 h_S_) main_v2 main_c
  let main_v4 : FVec F S512x32 .f32 := Host.absf main_arg1
  let main_cst_0 : FVec F S_ .f32 := constant S_ .f32 0x7F800000#32
  let main_v5 : FVec F S512x32 .f32 := broadcastInDim S512x32 ![] bcast_S_S512x32 main_cst_0
  let main_v6 : IVec S512x32 1 := cmpf .olt main_v4 main_v5
  let main_c_1 : IVec S_ 1 := constantI S_ 1 1#1
  let main_v7 : IVec S_ 1 := (fun x v => Host.reduce IntOp.andi x v reducesTo_S512x32_S_d0_1 h_S_) main_v6 main_c_1
  let main_v8 : IVec S_ 1 := andi main_v3 main_v7
  let main_v9 : FVec F S784x256 .f32 := Host.absf main_arg2
  let main_cst_2 : FVec F S_ .f32 := constant S_ .f32 0x7F800000#32
  let main_v10 : FVec F S784x256 .f32 := broadcastInDim S784x256 ![] bcast_S_S784x256 main_cst_2
  let main_v11 : IVec S784x256 1 := cmpf .olt main_v9 main_v10
  let main_c_3 : IVec S_ 1 := constantI S_ 1 1#1
  let main_v12 : IVec S_ 1 := (fun x v => Host.reduce IntOp.andi x v reducesTo_S784x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S8192x784 : Shape := ⟨2, ![8192, 784]⟩
abbrev S512x32 : Shape := ⟨2, ![512, 32]⟩
abbrev S784x256 : Shape := ⟨2, ![784, 256]⟩
abbrev S256 : Shape := ⟨1, ![256]⟩
abbrev S256x32 : Shape := ⟨2, ![256, 32]⟩
abbrev S32 : Shape := ⟨1, ![32]⟩
abbrev S32x256 : Shape := ⟨2, ![32, 256]⟩
abbrev S256x784 : Shape := ⟨2, ![256, 784]⟩
abbrev S784 : Shape := ⟨1, ![784]⟩
abbrev S1x256 : Shape := ⟨2, ![1, 256]⟩
abbrev S1x32 : Shape := ⟨2, ![1, 32]⟩
abbrev S1x784 : Shape := ⟨2, ![1, 784]⟩
abbrev S8192x512 : Shape := ⟨2, ![8192, 512]⟩
abbrev S8192x32 : Shape := ⟨2, ![8192, 32]⟩
abbrev S512x784 : Shape := ⟨2, ![512, 784]⟩
abbrev S512x512 : Shape := ⟨2, ![512, 512]⟩
abbrev S512x256 : Shape := ⟨2, ![512, 256]⟩
abbrev S128x32 : Shape := ⟨2, ![128, 32]⟩
abbrev S512x1x32 : Shape := ⟨3, ![512, 1, 32]⟩
abbrev S1x128x32 : Shape := ⟨3, ![1, 128, 32]⟩
abbrev S512x128x32 : Shape := ⟨3, ![512, 128, 32]⟩
abbrev S512x128 : Shape := ⟨2, ![512, 128]⟩
abbrev S512 : Shape := ⟨1, ![512]⟩
abbrev S512x1 : Shape := ⟨2, ![512, 1]⟩

abbrev nBuf : Space → Nat
  | .hbm => 18
  | .vmem => 19
  | .smem => 0
  | _ => 0

abbrev bufTy : (tb : Table) → Fin (tcTables nBuf tb) → BufTy
  | .hbm, ⟨0, _⟩ => ⟨S8192x784, .f32⟩
  | .hbm, ⟨1, _⟩ => ⟨S512x32, .f32⟩
  | .hbm, ⟨2, _⟩ => ⟨S784x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S32x256, .f32⟩
  | .hbm, ⟨7, _⟩ => ⟨S256, .f32⟩
  | .hbm, ⟨8, _⟩ => ⟨S256x784, .f32⟩
  | .hbm, ⟨9, _⟩ => ⟨S784, .f32⟩
  | .hbm, ⟨10, _⟩ => ⟨S1x256, .f32⟩
  | .hbm, ⟨11, _⟩ => ⟨S1x32, .f32⟩
  | .hbm, ⟨12, _⟩ => ⟨S1x256, .f32⟩
  | .hbm, ⟨13, _⟩ => ⟨S1x784, .f32⟩
  | .hbm, ⟨14, _⟩ => ⟨S8192x512, .f32⟩
  | .hbm, ⟨15, _⟩ => ⟨S8192x512, .f32⟩
  | .hbm, ⟨16, _⟩ => ⟨S8192x784, .f32⟩
  | .hbm, ⟨17, _⟩ => ⟨S8192x32, .f32⟩
  | .local _ .vmem, ⟨0, _⟩ => ⟨S512x784, .f32⟩
  | .local _ .vmem, ⟨1, _⟩ => ⟨S512x784, .f32⟩
  | .local _ .vmem, ⟨2, _⟩ => ⟨S512x32, .f32⟩
  | .local _ .vmem, ⟨3, _⟩ => ⟨S784x256, .f32⟩
  | .local _ .vmem, ⟨4, _⟩ => ⟨S1x256, .f32⟩
  | .local _ .vmem, ⟨5, _⟩ => ⟨S256x32, .f32⟩
  | .local _ .vmem, ⟨6, _⟩ => ⟨S1x32, .f32⟩
  | .local _ .vmem, ⟨7, _⟩ => ⟨S32x256, .f32⟩
  | .local _ .vmem, ⟨8, _⟩ => ⟨S1x256, .f32⟩
  | .local _ .vmem, ⟨9, _⟩ => ⟨S256x784, .f32⟩
  | .local _ .vmem, ⟨10, _⟩ => ⟨S1x784, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x784, .f32⟩
  | .local _ .vmem, ⟨16, _⟩ => ⟨S512x784, .f32⟩
  | .local _ .vmem, ⟨17, _⟩ => ⟨S512x32, .f32⟩
  | .local _ .vmem, ⟨18, _⟩ => ⟨S512x32, .f32⟩
  | _, _ => ⟨S8192x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4_0 : Ref sig .tc := ⟨.hbm, 14, rfl⟩
abbrev main_v4_1 : Ref sig .tc := ⟨.hbm, 15, rfl⟩
abbrev main_v4_2 : Ref sig .tc := ⟨.hbm, 16, rfl⟩
abbrev main_v4_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S784x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x784 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x784 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x784 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x32 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S256_S1x256 : S256.ShapeCasts S1x256
  shapeCasts_S32_S1x32 : S32.ShapeCasts S1x32
  shapeCasts_S784_S1x784 : S784.ShapeCasts S1x784
  inb_S512x784_S512x784_0_0 : ∀ a, (![0, 0] : Fin 2 → Nat) a + S512x784.size a ≤ S512x784.size a
  h_S512x784 : 0 < S512x784.numel
  inb_S784x256_S784x256_0_0 : ∀ a, (![0, 0] : Fin 2 → Nat) a + S784x256.size a ≤ S784x256.size a
  h_S784x256 : 0 < S784x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x32_S256x32_0_0 : ∀ a, (![0, 0] : Fin 2 → Nat) a + S256x32.size a ≤ S256x32.size a
  h_S256x32 : 0 < S256x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  inb_S32x256_S32x256_0_0 : ∀ a, (![0, 0] : Fin 2 → Nat) a + S32x256.size a ≤ S32x256.size a
  h_S32x256 : 0 < S32x256.numel
  inb_S256x784_S256x784_0_0 : ∀ a, (![0, 0] : Fin 2 → Nat) a + S256x784.size a ≤ S256x784.size a
  h_S256x784 : 0 < S256x784.numel
  inb_S1x784_S1x784_0_0 : ∀ a, (![0, 0] : Fin 2 → Nat) a + S1x784.size a ≤ S1x784.size a
  h_S1x784 : 0 < S1x784.numel
  shapeCasts_S1x784_S1x784 : S1x784.ShapeCasts S1x784
  broadcasts_S1x784_S512x784 : S1x784.Broadcasts S512x784
  inb_S512x32_S512x32_0_0 : ∀ a, (![0, 0] : Fin 2 → Nat) a + S512x32.size a ≤ S512x32.size a
  h_S512x32 : 0 < S512x32.numel
  slices_S512x32_o0_0_S128x32 : S512x32.Slices ![0, 0] S128x32
  shapeCasts_S512x32_S512x1x32 : S512x32.ShapeCasts S512x1x32
  shapeCasts_S128x32_S1x128x32 : S128x32.ShapeCasts S1x128x32
  broadcasts_S512x1x32_S512x128x32 : S512x1x32.Broadcasts S512x128x32
  broadcasts_S1x128x32_S512x128x32 : S1x128x32.Broadcasts S512x128x32
  reduces_S512x128x32_S512x128 : S512x128x32.Reduces [2] S512x128
  slices_S512x32_o128_0_S128x32 : S512x32.Slices ![128, 0] S128x32
  slices_S512x32_o256_0_S128x32 : S512x32.Slices ![256, 0] S128x32
  slices_S512x32_o384_0_S128x32 : S512x32.Slices ![384, 0] S128x32
  concatenates_S512x128_S512x128_S512x128_S512x128_S512x512_d1 : Shape.Concatenates [S512x128, S512x128, S512x128, S512x128] S512x512 1
  reduces_S512x512_S512 : S512x512.Reduces [1] S512
  shapeCasts_S512_S512x1 : S512.ShapeCasts S512x1
  broadcasts_S512x1_S512x512 : S512x1.Broadcasts S512x512
  inb_S512x512_S512x512_0_0 : ∀ a, (![0, 0] : Fin 2 → Nat) a + S512x512.size a ≤ S512x512.size a
  h_S512x512 : 0 < S512x512.numel
  dot_S512x784_S784x256_S512x256_1_0_0_1_n_n_wf : DotDims.WF S512x784 S784x256 S512x256 [1] [0] [0] [1] [] []
  dot_S512x256_S256x32_S512x32_1_0_0_1_n_n_wf : DotDims.WF S512x256 S256x32 S512x32 [1] [0] [0] [1] [] []
  dot_S512x32_S32x256_S512x256_1_0_0_1_n_n_wf : DotDims.WF S512x32 S32x256 S512x256 [1] [0] [0] [1] [] []
  dot_S512x256_S256x784_S512x784_1_0_0_1_n_n_wf : DotDims.WF S512x256 S256x784 S512x784 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x784.size a ≤ S8192x784.size a
  hwx0_0 : ∀ i : grid0.Coords, EltTy.bits .f32 = 32 ∨ (Rect.block (s := S8192x784) S512x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x32.size a ≤ S512x32.size a
  hwx0_1 : ∀ i : grid0.Coords, EltTy.bits .f32 = 32 ∨ (Rect.block (s := S512x32) S512x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S784x256.size a ≤ S784x256.size a
  hwx0_2 : ∀ i : grid0.Coords, EltTy.bits .f32 = 32 ∨ (Rect.block (s := S784x256) S784x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x32.size a ≤ S256x32.size a
  hwx0_4 : ∀ i : grid0.Coords, EltTy.bits .f32 = 32 ∨ (Rect.block (s := S256x32) S256x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x256.size a ≤ S32x256.size a
  hwx0_6 : ∀ i : grid0.Coords, EltTy.bits .f32 = 32 ∨ (Rect.block (s := S32x256) S32x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x784.size a ≤ S256x784.size a
  hwx0_8 : ∀ i : grid0.Coords, EltTy.bits .f32 = 32 ∨ (Rect.block (s := S256x784) S256x784.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x784.size a ≤ S1x784.size a
  hwx0_9 : ∀ i : grid0.Coords, EltTy.bits .f32 = 32 ∨ (Rect.block (s := S1x784) S1x784.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S8192x512.size a
  hwx0_10 : ∀ i : grid0.Coords, EltTy.bits .f32 = 32 ∨ (Rect.block (s := S8192x512) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S8192x512.size a
  hwx0_11 : ∀ i : grid0.Coords, EltTy.bits .f32 = 32 ∨ (Rect.block (s := S8192x512) S512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x784.size a ≤ S8192x784.size a
  hwx0_12 : ∀ i : grid0.Coords, EltTy.bits .f32 = 32 ∨ (Rect.block (s := S8192x784) S512x784.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x32.size a ≤ S8192x32.size a
  hwx0_13 : ∀ i : grid0.Coords, EltTy.bits .f32 = 32 ∨ (Rect.block (s := S8192x32) S512x32.size (cc0_transform_13 i) (hinb0_13 i)).WholeWords (EltTy.packing .f32)

variable [Facts₀]

def dot_S512x784_S784x256_S512x256_1_0_0_1_n_n : DotDims S512x784 S784x256 S512x256 where
  lhsContracting := [1]
  rhsContracting := [0]
  lhsNonContracting := [0]
  rhsNonContracting := [1]
  lhsBatch := []
  rhsBatch := []
  wf := dot_S512x784_S784x256_S512x256_1_0_0_1_n_n_wf
def dot_S512x256_S256x32_S512x32_1_0_0_1_n_n : DotDims S512x256 S256x32 S512x32 where
  lhsContracting := [1]
  rhsContracting := [0]
  lhsNonContracting := [0]
  rhsNonContracting := [1]
  lhsBatch := []
  rhsBatch := []
  wf := dot_S512x256_S256x32_S512x32_1_0_0_1_n_n_wf
def dot_S512x32_S32x256_S512x256_1_0_0_1_n_n : DotDims S512x32 S32x256 S512x256 where
  lhsContracting := [1]
  rhsContracting := [0]
  lhsNonContracting := [0]
  rhsNonContracting := [1]
  lhsBatch := []
  rhsBatch := []
  wf := dot_S512x32_S32x256_S512x256_1_0_0_1_n_n_wf
def dot_S512x256_S256x784_S512x784_1_0_0_1_n_n : DotDims S512x256 S256x784 S512x784 where
  lhsContracting := [1]
  rhsContracting := [0]
  lhsNonContracting := [0]
  rhsNonContracting := [1]
  lhsBatch := []
  rhsBatch := []
  wf := dot_S512x256_S256x784_S512x784_1_0_0_1_n_n_wf

abbrev win0_0 : Pipeline.Window sig grid0 :=
  Pipeline.Window.ofSpec (Memref.whole main_arg0) S512x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S784x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S32x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x784.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x784.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4_0) S512x512.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_1) S512x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_2) S512x784.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v4_3) S512x32.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8192x784 : Shape := ⟨2, ![8192, 784]⟩
abbrev S512x32 : Shape := ⟨2, ![512, 32]⟩
abbrev S784x256 : Shape := ⟨2, ![784, 256]⟩
abbrev S256 : Shape := ⟨1, ![256]⟩
abbrev S256x32 : Shape := ⟨2, ![256, 32]⟩
abbrev S32 : Shape := ⟨1, ![32]⟩
abbrev S32x256 : Shape := ⟨2, ![32, 256]⟩
abbrev S256x784 : Shape := ⟨2, ![256, 784]⟩
abbrev S784 : Shape := ⟨1, ![784]⟩
abbrev S8192x256 : Shape := ⟨2, ![8192, 256]⟩
abbrev S1x256 : Shape := ⟨2, ![1, 256]⟩
abbrev S_ : Shape := ⟨0, ![]⟩
abbrev S8192x32 : Shape := ⟨2, ![8192, 32]⟩
abbrev S1x32 : Shape := ⟨2, ![1, 32]⟩
abbrev S1x784 : Shape := ⟨2, ![1, 784]⟩
abbrev S8192x1x32 : Shape := ⟨3, ![8192, 1, 32]⟩
abbrev S1x512x32 : Shape := ⟨3, ![1, 512, 32]⟩
abbrev S8192x512x32 : Shape := ⟨3, ![8192, 512, 32]⟩
abbrev S8192x512 : Shape := ⟨2, ![8192, 512]⟩
abbrev S8192 : Shape := ⟨1, ![8192]⟩
abbrev S8192x1 : Shape := ⟨2, ![8192, 1]⟩

abbrev nBuf : Space → Nat
  | .hbm => 55
  | .vmem => 0
  | .smem => 0
  | _ => 0

abbrev bufTy : (tb : Table) → Fin (tcTables nBuf tb) → BufTy
  | .hbm, ⟨0, _⟩ => ⟨S8192x784, .f32⟩
  | .hbm, ⟨1, _⟩ => ⟨S512x32, .f32⟩
  | .hbm, ⟨2, _⟩ => ⟨S784x256, .f32⟩
  | .hbm, ⟨3, _⟩ => ⟨S256, .f32⟩
  | .hbm, ⟨4, _⟩ => ⟨S256x32, .f32⟩
  | .hbm, ⟨5, _⟩ => ⟨S32, .f32⟩
  | .hbm, ⟨6, _⟩ => ⟨S32x256, .f32⟩
  | .hbm, ⟨7, _⟩ => ⟨S256, .f32⟩
  | .hbm, ⟨8, _⟩ => ⟨S256x784, .f32⟩
  | .hbm, ⟨9, _⟩ => ⟨S784, .f32⟩
  | .hbm, ⟨10, _⟩ => ⟨S8192x256, .f32⟩
  | .hbm, ⟨11, _⟩ => ⟨S1x256, .f32⟩
  | .hbm, ⟨12, _⟩ => ⟨S8192x256, .f32⟩
  | .hbm, ⟨13, _⟩ => ⟨S8192x256, .f32⟩
  | .hbm, ⟨14, _⟩ => ⟨S_, .f32⟩
  | .hbm, ⟨15, _⟩ => ⟨S8192x256, .f32⟩
  | .hbm, ⟨16, _⟩ => ⟨S8192x256, .f32⟩
  | .hbm, ⟨17, _⟩ => ⟨S8192x32, .f32⟩
  | .hbm, ⟨18, _⟩ => ⟨S1x32, .f32⟩
  | .hbm, ⟨19, _⟩ => ⟨S8192x32, .f32⟩
  | .hbm, ⟨20, _⟩ => ⟨S8192x32, .f32⟩
  | .hbm, ⟨21, _⟩ => ⟨S8192x256, .f32⟩
  | .hbm, ⟨22, _⟩ => ⟨S1x256, .f32⟩
  | .hbm, ⟨23, _⟩ => ⟨S8192x256, .f32⟩
  | .hbm, ⟨24, _⟩ => ⟨S8192x256, .f32⟩
  | .hbm, ⟨25, _⟩ => ⟨S_, .f32⟩
  | .hbm, ⟨26, _⟩ => ⟨S8192x256, .f32⟩
  | .hbm, ⟨27, _⟩ => ⟨S8192x256, .f32⟩
  | .hbm, ⟨28, _⟩ => ⟨S8192x784, .f32⟩
  | .hbm, ⟨29, _⟩ => ⟨S1x784, .f32⟩
  | .hbm, ⟨30, _⟩ => ⟨S8192x784, .f32⟩
  | .hbm, ⟨31, _⟩ => ⟨S8192x784, .f32⟩
  | .hbm, ⟨32, _⟩ => ⟨S8192x1x32, .f32⟩
  | .hbm, ⟨33, _⟩ => ⟨S1x512x32, .f32⟩
  | .hbm, ⟨34, _⟩ => ⟨S8192x512x32, .f32⟩
  | .hbm, ⟨35, _⟩ => ⟨S8192x512x32, .f32⟩
  | .hbm, ⟨36, _⟩ => ⟨S8192x512x32, .f32⟩
  | .hbm, ⟨37, _⟩ => ⟨S8192x512x32, .f32⟩
  | .hbm, ⟨38, _⟩ => ⟨S_, .f32⟩
  | .hbm, ⟨39, _⟩ => ⟨S8192x512, .f32⟩
  | .hbm, ⟨40, _⟩ => ⟨S_, .f32⟩
  | .hbm, ⟨41, _⟩ => ⟨S8192, .f32⟩
  | .hbm, ⟨42, _⟩ => ⟨S8192x1, .f32⟩
  | .hbm, ⟨43, _⟩ => ⟨S8192x512, .f32⟩
  | .hbm, ⟨44, _⟩ => ⟨S8192x512, .f32⟩
  | .hbm, ⟨45, _⟩ => ⟨S_, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S8192x512, .f32⟩
  | .hbm, ⟨53, _⟩ => ⟨S8192x512, .f32⟩
  | .hbm, ⟨54, _⟩ => ⟨S8192x512, .f32⟩
  | _, _ => ⟨S8192x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_cst : Ref sig .tc := ⟨.hbm, 14, rfl⟩
abbrev main_call0_v0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_cst : Ref sig .tc := ⟨.hbm, 25, rfl⟩
abbrev main_call1_v0 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst : Ref sig .tc := ⟨.hbm, 38, rfl⟩
abbrev main_v24 : Ref sig .tc := ⟨.hbm, 39, rfl⟩
abbrev main_cst_0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_1 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_2 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S784_S1x784_1 : S784.BroadcastsInDim S1x784 (![1] : Fin 1 → Fin S1x784.rank)
  bcast_S1x784_S8192x784_0_1 : S1x784.BroadcastsInDim S8192x784 (![0, 1] : Fin 2 → Fin S8192x784.rank)
  bcast_S8192x32_S8192x1x32_0_2 : S8192x32.BroadcastsInDim S8192x1x32 (![0, 2] : Fin 2 → Fin S8192x1x32.rank)
  bcast_S512x32_S1x512x32_1_2 : S512x32.BroadcastsInDim S1x512x32 (![1, 2] : Fin 2 → Fin S1x512x32.rank)
  bcast_S8192x1x32_S8192x512x32_0_1_2 : S8192x1x32.BroadcastsInDim S8192x512x32 (![0, 1, 2] : Fin 3 → Fin S8192x512x32.rank)
  bcast_S1x512x32_S8192x512x32_0_1_2 : S1x512x32.BroadcastsInDim S8192x512x32 (![0, 1, 2] : Fin 3 → Fin S8192x512x32.rank)
  reducesTo_S8192x512x32_S8192x512_d2 : S8192x512x32.ReducesTo [2] S8192x512
  h_S_ : 0 < S_.numel
  reducesTo_S8192x512_S8192_d1 : S8192x512.ReducesTo [1] S8192
  bcast_S8192_S8192x1_0 : S8192.BroadcastsInDim S8192x1 (![0] : Fin 1 → Fin S8192x1.rank)
  bcast_S8192x1_S8192x512_0_1 : S8192x1.BroadcastsInDim S8192x512 (![0, 1] : Fin 2 → Fin S8192x512.rank)
  bcast_S_S8192x512 : S_.BroadcastsInDim S8192x512 (![] : Fin 0 → Fin S8192x512.rank)
  dot_S8192x784_S784x256_S8192x256_1_0_0_1_n_n_wf : DotDims.WF S8192x784 S784x256 S8192x256 [1] [0] [0] [1] [] []
  dot_S8192x256_S256x32_S8192x32_1_0_0_1_n_n_wf : DotDims.WF S8192x256 S256x32 S8192x32 [1] [0] [0] [1] [] []
  dot_S8192x32_S32x256_S8192x256_1_0_0_1_n_n_wf : DotDims.WF S8192x32 S32x256 S8192x256 [1] [0] [0] [1] [] []
  dot_S8192x256_S256x784_S8192x784_1_0_0_1_n_n_wf : DotDims.WF S8192x256 S256x784 S8192x784 [1] [0] [0] [1] [] []

variable [Facts₀]

def dot_S8192x784_S784x256_S8192x256_1_0_0_1_n_n : DotDims S8192x784 S784x256 S8192x256 where
  lhsContracting := [1]
  rhsContracting := [0]
  lhsNonContracting := [0]
  rhsNonContracting := [1]
  lhsBatch := []
  rhsBatch := []
  wf := dot_S8192x784_S784x256_S8192x256_1_0_0_1_n_n_wf
def dot_S8192x256_S256x32_S8192x32_1_0_0_1_n_n : DotDims S8192x256 S256x32 S8192x32 where
  lhsContracting := [1]
  rhsContracting := [0]
  lhsNonContracting := [0]
  rhsNonContracting := [1]
  lhsBatch := []
  rhsBatch := []
  wf := dot_S8192x256_S256x32_S8192x32_1_0_0_1_n_n_wf
def dot_S8192x32_S32x256_S8192x256_1_0_0_1_n_n : DotDims S8192x32 S32x256 S8192x256 where
  lhsContracting := [1]
  rhsContracting := [0]
  lhsNonContracting := [0]
  rhsNonContracting := [1]
  lhsBatch := []
  rhsBatch := []
  wf := dot_S8192x32_S32x256_S8192x256_1_0_0_1_n_n_wf
def dot_S8192x256_S256x784_S8192x784_1_0_0_1_n_n : DotDims S8192x256 S256x784 S8192x784 where
  lhsContracting := [1]
  rhsContracting := [0]
  lhsNonContracting := [0]
  rhsNonContracting := [1]
  lhsBatch := []
  rhsBatch := []
  wf := dot_S8192x256_S256x784_S8192x784_1_0_0_1_n_n_wf

class Facts : Prop extends Facts₀ where

variable [Facts]
-- ==== Proof.Spec.lean ====
/-
  The functions the two programs compute, one batch row at a time, on the extended reals.

  A row `x` of the input passes through a two-layer encoder (`hidden` : relu of an affine map, `embed` : an affine
  map of that) and a two-layer decoder (`hidden2`, `recon`). The embedded row `v` is compared with every cluster
  representative: `dist v C k = ∑ e, (v e - C k e)²`. The softmin weights are taken stably: with `m` the least
  distance of the row, `expo d k = exp (-1000 · (d k - m))`, and the weighted distance is
  `d k · (expo d k / ∑ k', expo d k')`.

  Every sum is a `Finset` sum over a literal index type, the minimum a fold of `min` from the f32 word of +∞, and
  the three float literals are kept as their words: the same word stands on both sides and is never evaluated.
-/
import Idealize.ShloMosaic.PureOps.Ideal
import Idealize.ShloMosaic.Lib.ValueIdx

noncomputable section

open scoped BigOperators

namespace Cert.RowSpec

open Idealize.ShloMosaic Idealize.ShloMosaic.ValueIdx

/-- The f32 word of zero (the relu's floor). -/
abbrev zeroW : EReal := Ideal.ofBits .f32 0x00000000#32
/-- The f32 word of +∞ (where the minimum starts). -/
abbrev infW : EReal := Ideal.ofBits .f32 0x7F800000#32
/-- The f32 word of -1000 (minus the softmin's sharpness). -/
abbrev sharpW : EReal := Ideal.ofBits .f32 0xC47A0000#32

/-- The encoder's hidden layer of one row: relu (x · W1 + b1). -/
def hidden (x : Fin 784 → EReal) (W1 : Fin 784 → Fin 256 → EReal) (b1 : Fin 256 → EReal) (j : Fin 256) : EReal :=
  max ((∑ k : Fin 784, x k * W1 k j) + b1 j) zeroW

/-- The embedding of one row: hidden · W2 + b2. -/
def embed (h : Fin 256 → EReal) (W2 : Fin 256 → Fin 32 → EReal) (b2 : Fin 32 → EReal) (e : Fin 32) : EReal :=
  (∑ j : Fin 256, h j * W2 j e) + b2 e

/-- The decoder's hidden layer of one embedded row: relu (v · W3 + b3). -/
def hidden2 (v : Fin 32 → EReal) (W3 : Fin 32 → Fin 256 → EReal) (b3 : Fin 256 → EReal) (j : Fin 256) : EReal :=
  max ((∑ e : Fin 32, v e * W3 e j) + b3 j) zeroW

/-- The reconstruction of one row: hidden2 · W4 + b4. -/
def recon (h : Fin 256 → EReal) (W4 : Fin 256 → Fin 784 → EReal) (b4 : Fin 784 → EReal) (d : Fin 784) : EReal :=
  (∑ j : Fin 256, h j * W4 j d) + b4 d

/-- The squared distance of an embedded row to cluster representative `k`. -/
def dist (v : Fin 32 → EReal) (C : Fin 512 → Fin 32 → EReal) (k : Fin 512) : EReal :=
  ∑ e : Fin 32, (v e - C k e) * (v e - C k e)

/-- The least of a row's distances, from +∞. -/
def least (d : Fin 512 → EReal) : EReal := (Finset.univ : Finset (Fin 512)).fold min infW d

/-- The softmin's unnormalised weight of cluster `k`. -/
def expo (d : Fin 512 → EReal) (k : Fin 512) : EReal := Ideal.exp (sharpW * (d k - least d))

/-- The softmin-weighted distance to cluster `k`. -/
def weighted (d : Fin 512 → EReal) (k : Fin 512) : EReal :=
  d k * Ideal.div (expo d k) (∑ k' : Fin 512, expo d k')

/-! ## The four results as whole arrays of the ten arguments -/

abbrev A8192x784 : Shape := ⟨2, ![8192, 784]⟩
abbrev A512x32 : Shape := ⟨2, ![512, 32]⟩
abbrev A784x256 : Shape := ⟨2, ![784, 256]⟩
abbrev A256 : Shape := ⟨1, ![256]⟩
abbrev A256x32 : Shape := ⟨2, ![256, 32]⟩
abbrev A32 : Shape := ⟨1, ![32]⟩
abbrev A32x256 : Shape := ⟨2, ![32, 256]⟩
abbrev A256x784 : Shape := ⟨2, ![256, 784]⟩
abbrev A784 : Shape := ⟨1, ![784]⟩
abbrev A8192x512 : Shape := ⟨2, ![8192, 512]⟩
abbrev A8192x32 : Shape := ⟨2, ![8192, 32]⟩

/-- A matrix as a function of its two coordinates. -/
abbrev mat {a b : Nat} (M : (⟨2, ![a, b]⟩ : Shape).Idx → EReal) : Fin a → Fin b → EReal := fun i j => M (ix2 i j)
/-- A vector as a function of its coordinate. -/
abbrev vec {a : Nat} (v : (⟨1, ![a]⟩ : Shape).Idx → EReal) : Fin a → EReal := fun i => v (ix1 i)
/-- Row `r` of a matrix. -/
abbrev row {a b : Nat} (M : (⟨2, ![a, b]⟩ : Shape).Idx → EReal) (r : Fin a) : Fin b → EReal := fun j => M (ix2 r j)

/-- Row `r`'s embedding. -/
def embRow (X : A8192x784.Idx → EReal) (W1 : A784x256.Idx → EReal) (b1 : A256.Idx → EReal) (W2 : A256x32.Idx → EReal)
    (b2 : A32.Idx → EReal) (r : Fin 8192) : Fin 32 → EReal :=
  embed (hidden (row X r) (mat W1) (vec b1)) (mat W2) (vec b2)

/-- Row `r`'s distances to the clusters. -/
def distRow (X : A8192x784.Idx → EReal) (C : A512x32.Idx → EReal) (W1 : A784x256.Idx → EReal) (b1 : A256.Idx → EReal)
    (W2 : A256x32.Idx → EReal) (b2 : A32.Idx → EReal) (r : Fin 8192) : Fin 512 → EReal :=
  dist (embRow X W1 b1 W2 b2 r) (mat C)

/-- The embeddings, [8192, 32]. -/
def embArr (X : A8192x784.Idx → EReal) (W1 : A784x256.Idx → EReal) (b1 : A256.Idx → EReal) (W2 : A256x32.Idx → EReal)
    (b2 : A32.Idx → EReal) : A8192x32.Idx → EReal :=
  fun i => embRow X W1 b1 W2 b2 (i 0) (i 1)

/-- The reconstruction, [8192, 784]. -/
def reconArr (X : A8192x784.Idx → EReal) (W1 : A784x256.Idx → EReal) (b1 : A256.Idx → EReal) (W2 : A256x32.Idx → EReal)
    (b2 : A32.Idx → EReal) (W3 : A32x256.Idx → EReal) (b3 : A256.Idx → EReal) (W4 : A256x784.Idx → EReal)
    (b4 : A784.Idx → EReal) : A8192x784.Idx → EReal :=
  fun i => recon (hidden2 (embRow X W1 b1 W2 b2 (i 0)) (mat W3) (vec b3)) (mat W4) (vec b4) (i 1)

/-- The distances, [8192, 512]. -/
def distArr (X : A8192x784.Idx → EReal) (C : A512x32.Idx → EReal) (W1 : A784x256.Idx → EReal) (b1 : A256.Idx → EReal)
    (W2 : A256x32.Idx → EReal) (b2 : A32.Idx → EReal) : A8192x512.Idx → EReal :=
  fun i => distRow X C W1 b1 W2 b2 (i 0) (i 1)

/-- The softmin-weighted distances, [8192, 512]. -/
def weightedArr (X : A8192x784.Idx → EReal) (C : A512x32.Idx → EReal) (W1 : A784x256.Idx → EReal) (b1 : A256.Idx → EReal)
    (W2 : A256x32.Idx → EReal) (b2 : A32.Idx → EReal) : A8192x512.Idx → EReal :=
  fun i => weighted (distRow X C W1 b1 W2 b2 (i 0)) (i 1)

end Cert.RowSpec

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.LibKeepdims.lean ====
/-
  Small layout operations and one-axis sums of a matrix, read at an index: a vector turned into a column
  ([a] → [a, 1]), a column broadcast along its rows ([a, 1] → [a, b]), the sum of a matrix along its rows
  ([a, b] → [a], at `i` the sum over `k` of the entries `(i, k)`) and the sum of a column ([a, 1] → [1]), the two
  sums at the ideal values, where a float sum is the sum of the extended reals.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the ideal values the sum of an `[a, b]` matrix along its rows is, at `i`, the sum over `k` of the entries `(i, k)`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => congrArg src (funext fun ax => Fin.ext ?_)
  match ax with
  | ⟨0, _⟩ => rfl
  | ⟨1, _⟩ => rfl

/-- At the ideal values the sum of an `[a, 1]` column is, at its one index, the sum over `r` of the entries `(r, 0)`. -/
theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) (u : Fin 1) :
    multiReduction .add [0] ⟨1, ![1]⟩ src acc h hφ hacc (ix1 u) = ∑ r : Fin a, src (ix2 r (0 : Fin 1)) := by
  refine (Ideal.multiReduction_add_single src acc h hφ hacc (ix1 u)).trans ?_
  refine Finset.sum_congr rfl fun r _ => congrArg src (funext fun ax => Fin.ext ?_)
  have hu : u.val = 0 := by omega
  match ax with
  | ⟨0, _⟩ => rfl
  | ⟨1, _⟩ => exact hu

end Cert.LibKeepdims

end
-- ==== Proof.LibRankThree.lean ====
/-
  Rank-three arrays read at an index: the layout operations that add, drop or stretch a unit axis of an
  [a, b, c] array, and its one-axis reductions at the ideal values.

  * casts: [a, b] → [a, b, 1], [a, 1] → [a, 1, 1], [a, c] → [a, 1, c], [c] → [1, 1, c] — each reads the operand at the
    index with the unit coordinates dropped;
  * broadcasts: [a, b, 1] → [a, b, c], [a, 1, 1] → [a, b, 1], [a, 1, c] → [a, b, c], [1, 1, c] → [a, b, c] — each reads
    the operand with the stretched coordinates set to 0;
  * sums at the ideal values: along the last axis ([a, b, c] → [a, b]) and along the middle axis ([a, b, c] → [a, c]),
    each the sum over that axis's coordinate; the maximum along the middle axis of an [a, b, 1] array, a fold of max
    from the accumulator's value.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibRankThree

open Idealize.ShloMosaic Idealize.ShloMosaic.ValueIdx

variable {α : Type}

/-! ## Casts that add unit axes -/

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, 1]` array cast to `[a, 1, 1]` reads, at `(i, u, u')`, the operand at `(i, 0)`. -/
theorem shapeCast_a1_a11_apply {a : ℕ} (x : (⟨2, ![a, 1]⟩ : Shape).Idx → α)
    (h : (⟨2, ![a, 1]⟩ : Shape).ShapeCasts ⟨3, ![a, 1, 1]⟩) (i : Fin a) (u u' : Fin 1) :
    shapeCast ⟨3, ![a, 1, 1]⟩ x h (ix3 i u u') = x (ix2 i (0 : Fin 1)) :=
  shapeCast_apply x h _ _ (by
    have hu : u.val = 0 := by omega
    have hu' : u'.val = 0 := by omega
    rw [Shape.rowMajor_val_three, Shape.rowMajor_val_two]
    show i.val * 1 + 0 = (i.val * 1 + u.val) * 1 + u'.val
    rw [hu, hu']; omega)

/-- An `[a, c]` array cast to `[a, 1, c]` reads, at `(i, u, k)`, the operand at `(i, k)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` array cast to `[1, 1, c]` reads, at `(u, u', k)`, the operand at `k`. -/
theorem shapeCast_c_11c_apply {c : ℕ} (x : (⟨1, ![c]⟩ : Shape).Idx → α)
    (h : (⟨1, ![c]⟩ : Shape).ShapeCasts ⟨3, ![1, 1, c]⟩) (u u' : Fin 1) (k : Fin c) :
    shapeCast ⟨3, ![1, 1, c]⟩ x h (ix3 u u' k) = x (ix1 k) :=
  shapeCast_apply x h _ _ (by
    have hu : u.val = 0 := by omega
    have hu' : u'.val = 0 := by omega
    rw [Shape.rowMajor_val_three, Shape.rowMajor_val_one]
    show k.val = (u.val * 1 + u'.val) * c + k.val
    rw [hu, hu']; omega)

/-! ## Broadcasts along unit axes -/

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, 1]` array broadcast to `[a, b, 1]` reads, at `(i, j, u)`, the operand at `(i, 0, 0)`. -/
theorem broadcastTo_a11_ab1_apply {a b : ℕ} (v : (⟨3, ![a, 1, 1]⟩ : Shape).Idx → α)
    (h : (⟨3, ![a, 1, 1]⟩ : Shape).Broadcasts ⟨3, ![a, b, 1]⟩) (i : Fin a) (j : Fin b) (u : Fin 1) :
    broadcastTo ⟨3, ![a, b, 1]⟩ v h (ix3 i j u) = v (ix3 i (0 : Fin 1) (0 : Fin 1)) := by
  refine broadcastTo_apply v h (ix3 i j u) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-! ## One-axis reductions at the ideal values -/

variable {φ : FTy}

/-- The sum of an `[a, b, c]` array along its last axis is, at `(i, j)`, the sum over `k` of the entries `(i, j, k)`. -/
theorem lastSum_apply {a b c : ℕ} (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-- The sum of an `[a, b, c]` array along its middle axis is, at `(i, k)`, the sum over `j` of the entries `(i, j, k)`. -/
theorem midSum_apply {a b c : ℕ} (src : FVec Ideal ⟨3, ![a, b, c]⟩ φ) (acc : BitVec φ.bits)
    (h : (⟨3, ![a, b, c]⟩ : Shape).Reduces [1] ⟨2, ![a, c]⟩) (hφ : FKind.Formats φ) (hacc : acc = FKind.add.neutral φ hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  refine Finset.sum_congr rfl fun j _ => congrArg src (funext fun ax => Fin.ext ?_)
  match ax with
  | ⟨0, _⟩ => rfl
  | ⟨1, _⟩ => rfl
  | ⟨2, _⟩ => rfl

/-- The maximum of an `[a, b, 1]` array along its middle axis is, at `(i, u)`, the fold of max from the accumulator's
    value over `j` of the entries `(i, j, 0)`. -/
theorem midMax_apply {a b : ℕ} (src : FVec Ideal ⟨3, ![a, b, 1]⟩ φ) (acc : BitVec φ.bits)
    (h : (⟨3, ![a, b, 1]⟩ : Shape).Reduces [1] ⟨2, ![a, 1]⟩) (hφ : FKind.Formats φ) (hacc : acc = FKind.maximumf.neutral φ hφ)
    (i : Fin a) (u : Fin 1) :
    multiReduction .maximumf [1] ⟨2, ![a, 1]⟩ src acc h hφ hacc (ix2 i u)
      = (Finset.univ : Finset (Fin b)).fold max (Ideal.ofBits φ acc) (fun j => src (ix3 i j (0 : Fin 1))) := by
  refine (Ideal.multiReduction_maximumf_single src acc h hφ hacc (ix2 i u)).trans ?_
  refine congrArg (fun f => (Finset.univ : Finset (Fin b)).fold max (Ideal.ofBits φ acc) f) (funext fun j => ?_)
  refine congrArg src (funext fun ax => Fin.ext ?_)
  have hu : u.val = 0 := by omega
  match ax with
  | ⟨0, _⟩ => rfl
  | ⟨1, _⟩ => rfl
  | ⟨2, _⟩ => exact hu

end Cert.LibRankThree

end
-- ==== Proof.LibRowTable.lean ====
/-
  Three small readings at an index, used where a block of rows is compared with a table of representatives.

  * `broadcastTo_1bc_abc_apply`: a `[1, b, c]` array spread over `a` leading copies reads, at `(i, j, k)`, the operand at
    `(0, j, k)`.
  * `biasRow_apply`: a `[1, b]` row, cast to its own shape and spread over `a` rows, reads at `(p, j)` the row at `j`.
  * `rowMin_apply`: at the ideal values the minimum of an `[a, b]` matrix along its rows is, at `i`, the fold of `min`
    from the accumulator's value over `k` of the entries `(i, k)`.
-/
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.LibRowTable

open Idealize.ShloMosaic Idealize.ShloMosaic.ValueIdx

variable {α : Type}

/-- A `[1, b, c]` array broadcast to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, b]` row, cast to its own shape and spread over `a` rows, reads at `(p, j)` the row at `j`. -/
theorem biasRow_apply {a b : ℕ} (v : (⟨2, ![1, b]⟩ : Shape).Idx → α) (h1 : (⟨2, ![1, b]⟩ : Shape).ShapeCasts ⟨2, ![1, b]⟩)
    (h2 : (⟨2, ![1, b]⟩ : Shape).Broadcasts ⟨2, ![a, b]⟩) (p : Fin a) (j : Fin b) :
    broadcastTo ⟨2, ![a, b]⟩ (shapeCast ⟨2, ![1, b]⟩ v h1) h2 (ix2 p j) = v (ix2 (0 : Fin 1) j) := by
  rw [broadcastTo_1b_ab_apply, shapeCast_self]

/-- At the ideal values the minimum of an `[a, b]` matrix along its rows is, at `i`, the fold of `min` from the
    accumulator's value over `k` of the entries `(i, k)`. -/
theorem rowMin_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (i : Fin a) :
    multiReduction .minimumf [1] ⟨1, ![a]⟩ src acc h hφ hacc (ix1 i)
      = (Finset.univ : Finset (Fin b)).fold min (Ideal.ofBits φ acc) (fun k => src (ix2 i k)) := by
  rw [multiReduction_minimumf_eq_fold]
  refine (h.fold_filter_drop_single _ _ src (ix1 i)).trans ?_
  refine congrArg (fun f => (Finset.univ : Finset (Fin b)).fold min (Ideal.ofBits φ acc) f) (funext fun k => ?_)
  refine congrArg src (funext fun ax => Fin.ext ?_)
  match ax with
  | ⟨0, _⟩ => rfl
  | ⟨1, _⟩ => rfl

end Cert.LibRowTable

end
-- ==== Proof.KernelRows.lean ====
/-
  The kernel body's values read one entry at a time, at the ideal values.

  A block of 512 rows is worked at once; every entry of each of the four stored values depends on ONE row of the
  input block and on the whole weights, and is the row function of the specification: the embedding `embed ∘ hidden`,
  the reconstruction `recon ∘ hidden2` of it, the squared distances (computed in four chunks of 128 clusters and laid
  side by side) and their softmin-weighted form.
-/
import proofs.«134649_j86878598463658_2_alg».proof.Proof.Gen.KernelIdeal.Skeleton
import proofs.«134649_j86878598463658_2_alg».proof.Proof.Spec
import proofs.«134649_j86878598463658_2_alg».proof.Proof.LibPlainDot
import proofs.«134649_j86878598463658_2_alg».proof.Proof.LibKeepdims
import proofs.«134649_j86878598463658_2_alg».proof.Proof.LibRankThree
import proofs.«134649_j86878598463658_2_alg».proof.Proof.LibRowTable
import Idealize.ShloMosaic.Lib.ValueLayout
import Idealize.ShloMosaic.Lib.Pipeline.Value

noncomputable section

open scoped BigOperators

namespace Cert.KernelRows

open Cert.KernelIdeal Cert.KernelIdeal.Gen Idealize.ShloMosaic Idealize.ShloMosaic.ValueIdx Cert.RowSpec
open Cert.LibRowTable (biasRow_apply broadcastTo_1bc_abc_apply rowMin_apply)

/-! ## The encoder and the decoder -/

/-- The embedding of the block's row `p`, at coordinate `e`. -/
theorem pay1_apply (x0 : Vec Ideal S512x784 .f32) (x1 : Vec Ideal S784x256 .f32) (x3 : Vec Ideal S1x256 .f32)
    (x9 : Vec Ideal S256x32 .f32) (x11 : Vec Ideal S1x32 .f32) (p : Fin 512) (e : Fin 32) :
    k0_pay1 x0 x1 x3 x9 x11 (ix2 p e)
      = embed (RowSpec.hidden (row x0 p) (mat x1) (row x3 0)) (mat x9) (row x11 0) e := by
  unfold k0_pay1 embed
  refine congrArg₂ (· + ·) ?_ (biasRow_apply x11 _ _ p e)
  refine (PlainDot.matmul_zero_apply 512 256 32 none _ x9 p e).trans ?_
  refine Finset.sum_congr rfl fun j _ => congrArg (· * x9 (ix2 j e)) ?_
  unfold RowSpec.hidden
  refine congrArg (max · zeroW) ?_
  refine congrArg₂ (· + ·) ?_ (biasRow_apply x3 _ _ p j)
  exact PlainDot.matmul_zero_apply 512 784 256 none x0 x1 p j

/-- The reconstruction of the block's row `p`, at coordinate `d`. -/
theorem pay2_apply (x0 : Vec Ideal S512x784 .f32) (x1 : Vec Ideal S784x256 .f32) (x3 : Vec Ideal S1x256 .f32)
    (x9 : Vec Ideal S256x32 .f32) (x11 : Vec Ideal S1x32 .f32) (x15 : Vec Ideal S32x256 .f32) (x17 : Vec Ideal S1x256 .f32)
    (x23 : Vec Ideal S256x784 .f32) (x25 : Vec Ideal S1x784 .f32) (p : Fin 512) (d : Fin 784) :
    k0_pay2 x0 x1 x3 x9 x11 x15 x17 x23 x25 (ix2 p d)
      = recon (hidden2 (embed (RowSpec.hidden (row x0 p) (mat x1) (row x3 0)) (mat x9) (row x11 0)) (mat x15) (row x17 0))
          (mat x23) (row x25 0) d := by
  unfold k0_pay2 recon
  refine congrArg₂ (· + ·) ?_ (biasRow_apply x25 _ _ p d)
  refine (PlainDot.matmul_zero_apply 512 256 784 none _ x23 p d).trans ?_
  refine Finset.sum_congr rfl fun j _ => congrArg (· * x23 (ix2 j d)) ?_
  unfold hidden2
  refine congrArg (max · zeroW) ?_
  refine congrArg₂ (· + ·) ?_ (biasRow_apply x17 _ _ p j)
  refine (PlainDot.matmul_zero_apply 512 32 256 none _ x15 p j).trans ?_
  exact Finset.sum_congr rfl fun e _ => congrArg (· * x15 (ix2 e j)) (pay1_apply x0 x1 x3 x9 x11 p e)

/-! ## The squared distances, chunk by chunk -/

/-- One chunk: the block's rows against the 128 representatives from row `o` of the table on; entry `(p, j)` is the
    squared distance of row `p` to representative `o + j`. -/
theorem chunk_apply (o : ℕ) (v14 : FVec Ideal S512x32 .f32) (v29 : Vec Ideal S512x32 .f32)
    (hs : S512x32.Slices ![o, 0] S128x32) (hc1 : S512x32.ShapeCasts S512x1x32) (hc2 : S128x32.ShapeCasts S1x128x32)
    (hA : S512x1x32.Broadcasts S512x128x32) (hB : S1x128x32.Broadcasts S512x128x32)
    (hr : S512x128x32.Reduces [2] S512x128) (hφ : FKind.Formats .f32)
    (hacc : (0x00000000#32 : BitVec 32) = FKind.add.neutral .f32 hφ) (p : Fin 512) (j : Fin 128) (q : Fin 512)
    (hq : q.val = o + j.val) :
    multiReduction .add [2] S512x128
        (mulf (subf (broadcastTo S512x128x32 (shapeCast S512x1x32 v14 hc1) hA)
                (broadcastTo S512x128x32 (shapeCast S1x128x32 (extractStridedSlice S128x32 ![o, 0] v29 hs) hc2) hB))
          (subf (broadcastTo S512x128x32 (shapeCast S512x1x32 v14 hc1) hA)
                (broadcastTo S512x128x32 (shapeCast S1x128x32 (extractStridedSlice S128x32 ![o, 0] v29 hs) hc2) hB)))
        0x00000000#32 hr hφ hacc (ix2 p j)
      = RowSpec.dist (row v14 p) (mat v29) q := by
  refine (LibRankThree.lastSum_apply _ _ hr hφ hacc p j).trans ?_
  unfold RowSpec.dist
  refine Finset.sum_congr rfl fun e _ => ?_
  have eA : broadcastTo S512x128x32 (shapeCast S512x1x32 v14 hc1) hA (ix3 p j e) = v14 (ix2 p e) := by
    rw [LibRankThree.broadcastTo_a1c_abc_apply, LibRankThree.shapeCast_ac_a1c_apply]
  have eB : broadcastTo S512x128x32 (shapeCast S1x128x32 (extractStridedSlice S128x32 ![o, 0] v29 hs) hc2) hB (ix3 p j e)
      = v29 (ix2 q e) := by
    rw [broadcastTo_1bc_abc_apply, shapeCast_ab_1ab_apply, slice2_axis0_apply o v29 hs j e q hq]
  show (broadcastTo S512x128x32 (shapeCast S512x1x32 v14 hc1) hA (ix3 p j e)
        - broadcastTo S512x128x32 (shapeCast S1x128x32 (extractStridedSlice S128x32 ![o, 0] v29 hs) hc2) hB (ix3 p j e))
      * (broadcastTo S512x128x32 (shapeCast S512x1x32 v14 hc1) hA (ix3 p j e)
        - broadcastTo S512x128x32 (shapeCast S1x128x32 (extractStridedSlice S128x32 ![o, 0] v29 hs) hc2) hB (ix3 p j e)) = _
  rw [eA, eB]

/-- The distances of the block's row `p` to every representative: the four chunks laid side by side, so that column
    `q` is chunk `q / 128`'s column `q % 128`, the squared distance to representative `q`. -/
theorem pay5_apply (v14 : FVec Ideal S512x32 .f32) (v29 : Vec Ideal S512x32 .f32) (p q : Fin 512) :
    k0_pay5 v14 v29 (shapeCast S512x1x32 v14 shapeCasts_S512x32_S512x1x32)
        (shapeCast S1x128x32 (extractStridedSlice S128x32 ![0, 0] v29 slices_S512x32_o0_0_S128x32) shapeCasts_S128x32_S1x128x32)
        (ix2 p q)
      = RowSpec.dist (row v14 p) (mat v29) q := by
  unfold k0_pay5
  have hq : q.val < 512 := q.isLt
  by_cases h1 : q.val < 128
  · refine (concatenate_apply_piece (t := S512x512) (1 : Fin 2) _ _ (ix2 p q) 0 (by show (0 : ℕ) < 4; omega) S512x128 _ rfl rfl 0 rfl
      (ix2 p ⟨q.val, h1⟩) (fun b hb => by match b with | ⟨0, _⟩ => rfl | ⟨1, _⟩ => exact absurd rfl hb)
      (by show 0 + q.val = q.val; omega)).trans ?_
    exact chunk_apply 0 v14 v29 _ _ _ _ _ _ _ _ p ⟨q.val, h1⟩ q (by show q.val = 0 + q.val; omega)
  by_cases h2 : q.val < 256
  · have hj : q.val - 128 < 128 := by omega
    refine (concatenate_apply_piece (t := S512x512) (1 : Fin 2) _ _ (ix2 p q) 1 (by show (1 : ℕ) < 4; omega) S512x128 _ rfl rfl 128 rfl
      (ix2 p ⟨q.val - 128, hj⟩) (fun b hb => by match b with | ⟨0, _⟩ => rfl | ⟨1, _⟩ => exact absurd rfl hb)
      (by show 128 + (q.val - 128) = q.val; omega)).trans ?_
    exact chunk_apply 128 v14 v29 _ _ _ _ _ _ _ _ p ⟨q.val - 128, hj⟩ q (by show q.val = 128 + (q.val - 128); omega)
  by_cases h3 : q.val < 384
  · have hj : q.val - 256 < 128 := by omega
    refine (concatenate_apply_piece (t := S512x512) (1 : Fin 2) _ _ (ix2 p q) 2 (by show (2 : ℕ) < 4; omega) S512x128 _ rfl rfl 256 rfl
      (ix2 p ⟨q.val - 256, hj⟩) (fun b hb => by match b with | ⟨0, _⟩ => rfl | ⟨1, _⟩ => exact absurd rfl hb)
      (by show 256 + (q.val - 256) = q.val; omega)).trans ?_
    exact chunk_apply 256 v14 v29 _ _ _ _ _ _ _ _ p ⟨q.val - 256, hj⟩ q (by show q.val = 256 + (q.val - 256); omega)
  · have hj : q.val - 384 < 128 := by omega
    refine (concatenate_apply_piece (t := S512x512) (1 : Fin 2) _ _ (ix2 p q) 3 (by show (3 : ℕ) < 4; omega) S512x128 _ rfl rfl 384 rfl
      (ix2 p ⟨q.val - 384, hj⟩) (fun b hb => by match b with | ⟨0, _⟩ => rfl | ⟨1, _⟩ => exact absurd rfl hb)
      (by show 384 + (q.val - 384) = q.val; omega)).trans ?_
    exact chunk_apply 384 v14 v29 _ _ _ _ _ _ _ _ p ⟨q.val - 384, hj⟩ q (by show q.val = 384 + (q.val - 384); omega)

/-! ## The softmin weighting -/

/-- The least entry of each row, kept as a column and spread back over the row: at `(p, q)` the fold of `min` over row `p`. -/
theorem keepMin_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.minimumf.neutral .f32 hφ)
    (hc : (⟨1, ![a]⟩ : Shape).ShapeCasts ⟨2, ![a, 1]⟩) (hb : (⟨2, ![a, 1]⟩ : Shape).Broadcasts ⟨2, ![a, b]⟩) (p : Fin a) (q : Fin b) :
    broadcastTo ⟨2, ![a, b]⟩ (shapeCast ⟨2, ![a, 1]⟩ (multiReduction .minimumf [1] ⟨1, ![a]⟩ src acc h hφ hacc) hc) hb (ix2 p q)
      = (Finset.univ : Finset (Fin b)).fold min (Ideal.ofBits .f32 acc) (fun k => src (ix2 p k)) := by
  rw [LibKeepdims.broadcastTo_a1_ab_apply, LibKeepdims.shapeCast_a_a1_apply, rowMin_apply]

/-- The sum of each row, kept as a column and spread back over the row: at `(p, q)` the sum over row `p`. -/
theorem keepSum_apply {a b : ℕ} (src : FVec Ideal ⟨2, ![a, b]⟩ .f32) (acc : BitVec 32)
    (h : (⟨2, ![a, b]⟩ : Shape).Reduces [1] ⟨1, ![a]⟩) (hφ : FKind.Formats .f32) (hacc : acc = FKind.add.neutral .f32 hφ)
    (hc : (⟨1, ![a]⟩ : Shape).ShapeCasts ⟨2, ![a, 1]⟩) (hb : (⟨2, ![a, 1]⟩ : Shape).Broadcasts ⟨2, ![a, b]⟩) (p : Fin a) (q : Fin b) :
    broadcastTo ⟨2, ![a, b]⟩ (shapeCast ⟨2, ![a, 1]⟩ (multiReduction .add [1] ⟨1, ![a]⟩ src acc h hφ hacc) hc) hb (ix2 p q)
      = ∑ k : Fin b, src (ix2 p k) := by
  rw [LibKeepdims.broadcastTo_a1_ab_apply, LibKeepdims.shapeCast_a_a1_apply, LibKeepdims.rowSum_apply]

/-- The weighting of a block of distances `D`, given the spread row minimum `M`, the weights `E = exp (-1000 · (D - M))`
    and their spread row sums `S`: entry `(p, q)` of `D · (E / S)` is the weighted distance of row `p` to cluster `q`. -/
theorem softmin_apply (D M E S : FVec Ideal S512x512 .f32) (p q : Fin 512)
    (hM : ∀ k : Fin 512, M (ix2 p k) = least (row D p))
    (hE : E = exp (mulf (broadcast S512x512 (Scalar.ofBits .f32 0xC47A0000#32)) (subf D M)))
    (hS : S (ix2 p q) = ∑ k : Fin 512, E (ix2 p k)) :
    mulf D (divf E S) (ix2 p q) = weighted (row D p) q := by
  have hEk : ∀ k : Fin 512, E (ix2 p k) = expo (row D p) k := fun k => by
    rw [hE]
    show Ideal.exp (Ideal.ofBits .f32 0xC47A0000#32 * (D (ix2 p k) - M (ix2 p k))) = _
    rw [hM k]
    rfl
  show D (ix2 p q) * Ideal.div (E (ix2 p q)) (S (ix2 p q)) = _
  rw [hS, hEk q, Finset.sum_congr rfl fun k _ => hEk k]
  rfl

/-- The weighted distances of the block's row `p`. -/
theorem pay6_apply (v14 : FVec Ideal S512x32 .f32) (v29 : Vec Ideal S512x32 .f32) (v31 : FVec Ideal S512x1x32 .f32)
    (v32 : FVec Ideal S1x128x32 .f32) (p q : Fin 512) :
    k0_pay6 v14 v29 v31 v32 (ix2 p q) = weighted (row (k0_pay5 v14 v29 v31 v32) p) q := by
  unfold k0_pay6
  refine softmin_apply (k0_pay5 v14 v29 v31 v32) _ _ _ p q (fun k => ?_) rfl ?_
  · exact keepMin_apply (k0_pay5 v14 v29 v31 v32) _ _ _ _ _ _ p k
  · exact keepSum_apply _ _ _ _ _ _ _ p q

/-! ## The two stored distance blocks from the loaded blocks -/

/-- The stored distances: row `p` of the block against representative `q`, the embedding spelt out. -/
theorem dist_block (x0 : Vec Ideal S512x784 .f32) (x1 : Vec Ideal S512x32 .f32) (x2 : Vec Ideal S784x256 .f32)
    (x3 : Vec Ideal S1x256 .f32) (x4 : Vec Ideal S256x32 .f32) (x5 : Vec Ideal S1x32 .f32) (p q : Fin 512) :
    k0_pay5 (k0_pay1 x0 x2 x3 x4 x5) x1 (k0_pay3 x0 x2 x3 x4 x5) (k0_pay4 x1) (ix2 p q)
      = RowSpec.dist (embed (RowSpec.hidden (row x0 p) (mat x2) (row x3 0)) (mat x4) (row x5 0)) (mat x1) q := by
  refine (pay5_apply (k0_pay1 x0 x2 x3 x4 x5) x1 p q).trans ?_
  exact congrArg (fun v => RowSpec.dist v (mat x1) q) (funext fun e => pay1_apply x0 x2 x3 x4 x5 p e)

/-- The stored weighted distances of row `p`. -/
theorem weighted_block (x0 : Vec Ideal S512x784 .f32) (x1 : Vec Ideal S512x32 .f32) (x2 : Vec Ideal S784x256 .f32)
    (x3 : Vec Ideal S1x256 .f32) (x4 : Vec Ideal S256x32 .f32) (x5 : Vec Ideal S1x32 .f32) (p q : Fin 512) :
    k0_pay6 (k0_pay1 x0 x2 x3 x4 x5) x1 (k0_pay3 x0 x2 x3 x4 x5) (k0_pay4 x1) (ix2 p q)
      = weighted (RowSpec.dist (embed (RowSpec.hidden (row x0 p) (mat x2) (row x3 0)) (mat x4) (row x5 0)) (mat x1)) q := by
  refine (pay6_apply _ _ _ _ p q).trans ?_
  exact congrArg (fun d => weighted d q) (funext fun k => dist_block x0 x1 x2 x3 x4 x5 p k)

end Cert.KernelRows

end
-- ==== Proof.KernelArrays.lean ====
/-
  From blocks to whole arrays: what the kernel leaves in its four result arrays.

  The grid has sixteen points; point `t` is given rows `512 t … 512 t + 511` of the input and of each result, and the
  whole of every weight (the four biases arrive reshaped to one row). Every entry the point writes back is the row
  function of the specification at the row's global number, so each result array ends as the specification's array:
  the blocks tile the arrays, the point that covers row `r` being `r / 512`.
-/
import proofs.«134649_j86878598463658_2_alg».proof.Proof.Gen.KernelIdeal.Value
import proofs.«134649_j86878598463658_2_alg».proof.Proof.KernelRows
import Idealize.ShloMosaic.Lib.Pipeline.Value
import Idealize.ShloMosaic.Lib.StableHlo.Run

noncomputable section

open scoped BigOperators

namespace Cert.KernelArrays

open Cert.KernelIdeal Cert.KernelIdeal.Gen Idealize.ShloMosaic Idealize.ShloMosaic.TcCoe Idealize.SL.Sem
open Idealize.ShloMosaic.ValueIdx Cert.RowSpec Cert.KernelRows
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## What the body leaves in each result's buffer, as the payloads of the loaded blocks -/

theorem out13_eq (x0 : Vec Ideal S512x784 .f32) (x1 : Vec Ideal S512x32 .f32) (x2 : Vec Ideal S784x256 .f32)
    (x3 : Vec Ideal S1x256 .f32) (x4 : Vec Ideal S256x32 .f32) (x5 : Vec Ideal S1x32 .f32) (x6 : Vec Ideal S32x256 .f32)
    (x7 : Vec Ideal S1x256 .f32) (x8 : Vec Ideal S256x784 .f32) (x9 : Vec Ideal S1x784 .f32) :
    out0_13 x0 x1 x2 x3 x4 x5 x6 x7 x8 x9 = k0_pay1 x0 x2 x3 x4 x5 := by
  unfold out0_13
  rw [View.canon_unit_zero hz]
  simp only [View.ld_unit_zero (S := S512x784) hz, View.ld_unit_zero (S := S784x256) hz, View.ld_unit_zero (S := S1x256) hz,
    View.ld_unit_zero (S := S256x32) hz, View.ld_unit_zero (S := S1x32) hz]

theorem out12_eq (x0 : Vec Ideal S512x784 .f32) (x1 : Vec Ideal S512x32 .f32) (x2 : Vec Ideal S784x256 .f32)
    (x3 : Vec Ideal S1x256 .f32) (x4 : Vec Ideal S256x32 .f32) (x5 : Vec Ideal S1x32 .f32) (x6 : Vec Ideal S32x256 .f32)
    (x7 : Vec Ideal S1x256 .f32) (x8 : Vec Ideal S256x784 .f32) (x9 : Vec Ideal S1x784 .f32) :
    out0_12 x0 x1 x2 x3 x4 x5 x6 x7 x8 x9 = k0_pay2 x0 x2 x3 x4 x5 x6 x7 x8 x9 := by
  unfold out0_12
  rw [View.canon_unit_zero hz]
  simp only [View.ld_unit_zero (S := S512x784) hz, View.ld_unit_zero (S := S784x256) hz, View.ld_unit_zero (S := S1x256) hz,
    View.ld_unit_zero (S := S256x32) hz, View.ld_unit_zero (S := S1x32) hz, View.ld_unit_zero (S := S32x256) hz,
    View.ld_unit_zero (S := S256x784) hz, View.ld_unit_zero (S := S1x784) hz]

theorem out11_eq (x0 : Vec Ideal S512x784 .f32) (x1 : Vec Ideal S512x32 .f32) (x2 : Vec Ideal S784x256 .f32)
    (x3 : Vec Ideal S1x256 .f32) (x4 : Vec Ideal S256x32 .f32) (x5 : Vec Ideal S1x32 .f32) (x6 : Vec Ideal S32x256 .f32)
    (x7 : Vec Ideal S1x256 .f32) (x8 : Vec Ideal S256x784 .f32) (x9 : Vec Ideal S1x784 .f32) :
    out0_11 x0 x1 x2 x3 x4 x5 x6 x7 x8 x9
      = k0_pay5 (k0_pay1 x0 x2 x3 x4 x5) x1 (k0_pay3 x0 x2 x3 x4 x5) (k0_pay4 x1) := by
  unfold out0_11
  rw [View.canon_unit_zero hz]
  simp only [View.ld_unit_zero (S := S512x784) hz, View.ld_unit_zero (S := S784x256) hz, View.ld_unit_zero (S := S1x256) hz,
    View.ld_unit_zero (S := S256x32) hz, View.ld_unit_zero (S := S1x32) hz, View.ld_unit_zero (S := S512x32) hz]

theorem out10_eq (x0 : Vec Ideal S512x784 .f32) (x1 : Vec Ideal S512x32 .f32) (x2 : Vec Ideal S784x256 .f32)
    (x3 : Vec Ideal S1x256 .f32) (x4 : Vec Ideal S256x32 .f32) (x5 : Vec Ideal S1x32 .f32) (x6 : Vec Ideal S32x256 .f32)
    (x7 : Vec Ideal S1x256 .f32) (x8 : Vec Ideal S256x784 .f32) (x9 : Vec Ideal S1x784 .f32) :
    out0_10 x0 x1 x2 x3 x4 x5 x6 x7 x8 x9
      = k0_pay6 (k0_pay1 x0 x2 x3 x4 x5) x1 (k0_pay3 x0 x2 x3 x4 x5) (k0_pay4 x1) := by
  unfold out0_10
  rw [View.canon_unit_zero hz]
  simp only [View.ld_unit_zero (S := S512x784) hz, View.ld_unit_zero (S := S784x256) hz, View.ld_unit_zero (S := S1x256) hz,
    View.ld_unit_zero (S := S256x32) hz, View.ld_unit_zero (S := S1x32) hz, View.ld_unit_zero (S := S512x32) hz]

/-! ## The index maps over the grid -/

/-- The input and the four results move one block of rows per point; every weight stays at block (0, 0). -/
theorem idx_facts : ∀ t : Fin cfg0.N,
    (win0_0.index t (0 : Fin 2) = t.val ∧ win0_0.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

theorem idx_whole : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

theorem t_lt (t : Fin cfg0.N) : t.val < 16 := Nat.lt_of_lt_of_eq t.isLt N_0

/-- The global number of row `p` of point `t`'s block. -/
def rowOf (t : Fin cfg0.N) (p : Fin 512) : Fin 8192 := ⟨t.val * 512 + p.val, by have := t_lt t; have := p.isLt; omega⟩

/-! ## The blocks a point is given -/

/-- Row `p` of point `t`'s input block is row `rowOf t p` of the input. -/
theorem blockX (c : Dev nD) (t : Fin cfg0.N) (p : Fin 512) (k : Fin 784) :
    iblk m c 0 t (ix2 p k) = m ((c : Thread nD τ).loc main_arg0) (ix2 (rowOf t p) k) := by
  show V m c main_arg0 (((cfg0.win 0).blk t).view.emb (ix2 p k)) = _
  rw [V_main_arg0]
  refine congrArg _ (funext fun a => Fin.ext ?_)
  obtain ⟨⟨e0, e1⟩, -⟩ := idx_facts t
  match a with
  | ⟨0, _⟩ => show win0_0.index t (0 : Fin 2) * 512 + 1 * p.val = t.val * 512 + p.val; omega
  | ⟨1, _⟩ => show win0_0.index t (1 : Fin 2) * 784 + 1 * k.val = k.val; omega

/-- Every point is given the whole table of representatives. -/
theorem blockC (c : Dev nD) (t : Fin cfg0.N) : (iblk m c 1 t : S512x32.Idx → EReal) = m ((c : Thread nD τ).loc main_arg1) := by
  funext y
  show V m c main_arg1 (((cfg0.win 1).blk t).view.emb y) = _
  rw [V_main_arg1]
  refine congrArg _ (funext fun a => Fin.ext ?_)
  obtain ⟨h1, h2, h3, h4, h5, h6, h7, h8, h9⟩ := idx_whole t
  match a with
  | ⟨0, _⟩ => show win0_1.index t (0 : Fin 2) * 512 + 1 * (y 0).val = (y 0).val; omega
  | ⟨1, _⟩ => show win0_1.index t (1 : Fin 2) * 32 + 1 * (y 1).val = (y 1).val; omega

/-- Every point is given the whole first weight. -/
theorem blockW1 (c : Dev nD) (t : Fin cfg0.N) : (iblk m c 2 t : S784x256.Idx → EReal) = m ((c : Thread nD τ).loc main_arg2) := by
  funext y
  show V m c main_arg2 (((cfg0.win 2).blk t).view.emb y) = _
  rw [V_main_arg2]
  refine congrArg _ (funext fun a => Fin.ext ?_)
  obtain ⟨h1, h2, h3, h4, h5, h6, h7, h8, h9⟩ := idx_whole t
  match a with
  | ⟨0, _⟩ => show win0_2.index t (0 : Fin 2) * 784 + 1 * (y 0).val = (y 0).val; omega
  | ⟨1, _⟩ => show win0_2.index t (1 : Fin 2) * 256 + 1 * (y 1).val = (y 1).val; omega

/-- Every point is given the whole second weight. -/
theorem blockW2 (c : Dev nD) (t : Fin cfg0.N) : (iblk m c 4 t : S256x32.Idx → EReal) = m ((c : Thread nD τ).loc main_arg4) := by
  funext y
  show V m c main_arg4 (((cfg0.win 4).blk t).view.emb y) = _
  rw [V_main_arg4]
  refine congrArg _ (funext fun a => Fin.ext ?_)
  obtain ⟨h1, h2, h3, h4, h5, h6, h7, h8, h9⟩ := idx_whole t
  match a with
  | ⟨0, _⟩ => show win0_4.index t (0 : Fin 2) * 256 + 1 * (y 0).val = (y 0).val; omega
  | ⟨1, _⟩ => show win0_4.index t (1 : Fin 2) * 32 + 1 * (y 1).val = (y 1).val; omega

/-- Every point is given the whole third weight. -/
theorem blockW3 (c : Dev nD) (t : Fin cfg0.N) : (iblk m c 6 t : S32x256.Idx → EReal) = m ((c : Thread nD τ).loc main_arg6) := by
  funext y
  show V m c main_arg6 (((cfg0.win 6).blk t).view.emb y) = _
  rw [V_main_arg6]
  refine congrArg _ (funext fun a => Fin.ext ?_)
  obtain ⟨h1, h2, h3, h4, h5, h6, h7, h8, h9⟩ := idx_whole t
  match a with
  | ⟨0, _⟩ => show win0_6.index t (0 : Fin 2) * 32 + 1 * (y 0).val = (y 0).val; omega
  | ⟨1, _⟩ => show win0_6.index t (1 : Fin 2) * 256 + 1 * (y 1).val = (y 1).val; omega

/-- Every point is given the whole fourth weight. -/
theorem blockW4 (c : Dev nD) (t : Fin cfg0.N) : (iblk m c 8 t : S256x784.Idx → EReal) = m ((c : Thread nD τ).loc main_arg8) := by
  funext y
  show V m c main_arg8 (((cfg0.win 8).blk t).view.emb y) = _
  rw [V_main_arg8]
  refine congrArg _ (funext fun a => Fin.ext ?_)
  obtain ⟨h1, h2, h3, h4, h5, h6, h7, h8, h9⟩ := idx_whole t
  match a with
  | ⟨0, _⟩ => show win0_8.index t (0 : Fin 2) * 256 + 1 * (y 0).val = (y 0).val; omega
  | ⟨1, _⟩ => show win0_8.index t (1 : Fin 2) * 784 + 1 * (y 1).val = (y 1).val; omega

/-- The bias as the region finds it: the argument cast to one row. -/
theorem V_main_v0 (c : Dev nD) : (V m c main_v0 : S1x256.Idx → EReal) = shapeCast S1x256 (m ((c : Thread nD τ).loc main_arg3)) shapeCasts_S256_S1x256 := by
  dsimp only [V, hostOps0]; after_results; rfl

/-- Every point is given the first bias as one row. -/
theorem blockb1 (c : Dev nD) (t : Fin cfg0.N) (j : Fin 256) :
    iblk m c 3 t (ix2 (0 : Fin 1) j) = m ((c : Thread nD τ).loc main_arg3) (ix1 j) := by
  show V m c main_v0 (((cfg0.win 3).blk t).view.emb (ix2 (0 : Fin 1) j)) = _
  have he : ((cfg0.win 3).blk t).view.emb (ix2 (0 : Fin 1) j) = ix2 (0 : Fin 1) j := by
    refine funext fun a => Fin.ext ?_
    obtain ⟨h1, h2, h3, h4, h5, h6, h7, h8, h9⟩ := idx_whole t
    match a with
    | ⟨0, _⟩ => show win0_3.index t (0 : Fin 2) * 1 + 1 * 0 = 0; omega
    | ⟨1, _⟩ => show win0_3.index t (1 : Fin 2) * 256 + 1 * j.val = j.val; omega
  rw [he, V_main_v0]
  exact shapeCast_a_1a_apply _ _ (0 : Fin 1) j

/-- The bias as the region finds it: the argument cast to one row. -/
theorem V_main_v1 (c : Dev nD) : (V m c main_v1 : S1x32.Idx → EReal) = shapeCast S1x32 (m ((c : Thread nD τ).loc main_arg5)) shapeCasts_S32_S1x32 := by
  dsimp only [V, hostOps0]; after_results; rfl

/-- Every point is given the second bias as one row. -/
theorem blockb2 (c : Dev nD) (t : Fin cfg0.N) (j : Fin 32) :
    iblk m c 5 t (ix2 (0 : Fin 1) j) = m ((c : Thread nD τ).loc main_arg5) (ix1 j) := by
  show V m c main_v1 (((cfg0.win 5).blk t).view.emb (ix2 (0 : Fin 1) j)) = _
  have he : ((cfg0.win 5).blk t).view.emb (ix2 (0 : Fin 1) j) = ix2 (0 : Fin 1) j := by
    refine funext fun a => Fin.ext ?_
    obtain ⟨h1, h2, h3, h4, h5, h6, h7, h8, h9⟩ := idx_whole t
    match a with
    | ⟨0, _⟩ => show win0_5.index t (0 : Fin 2) * 1 + 1 * 0 = 0; omega
    | ⟨1, _⟩ => show win0_5.index t (1 : Fin 2) * 32 + 1 * j.val = j.val; omega
  rw [he, V_main_v1]
  exact shapeCast_a_1a_apply _ _ (0 : Fin 1) j

/-- The bias as the region finds it: the argument cast to one row. -/
theorem V_main_v2 (c : Dev nD) : (V m c main_v2 : S1x256.Idx → EReal) = shapeCast S1x256 (m ((c : Thread nD τ).loc main_arg7)) shapeCasts_S256_S1x256 := by
  dsimp only [V, hostOps0]; after_results; rfl

/-- Every point is given the third bias as one row. -/
theorem blockb3 (c : Dev nD) (t : Fin cfg0.N) (j : Fin 256) :
    iblk m c 7 t (ix2 (0 : Fin 1) j) = m ((c : Thread nD τ).loc main_arg7) (ix1 j) := by
  show V m c main_v2 (((cfg0.win 7).blk t).view.emb (ix2 (0 : Fin 1) j)) = _
  have he : ((cfg0.win 7).blk t).view.emb (ix2 (0 : Fin 1) j) = ix2 (0 : Fin 1) j := by
    refine funext fun a => Fin.ext ?_
    obtain ⟨h1, h2, h3, h4, h5, h6, h7, h8, h9⟩ := idx_whole t
    match a with
    | ⟨0, _⟩ => show win0_7.index t (0 : Fin 2) * 1 + 1 * 0 = 0; omega
    | ⟨1, _⟩ => show win0_7.index t (1 : Fin 2) * 256 + 1 * j.val = j.val; omega
  rw [he, V_main_v2]
  exact shapeCast_a_1a_apply _ _ (0 : Fin 1) j

/-- The bias as the region finds it: the argument cast to one row. -/
theorem V_main_v3 (c : Dev nD) : (V m c main_v3 : S1x784.Idx → EReal) = shapeCast S1x784 (m ((c : Thread nD τ).loc main_arg9)) shapeCasts_S784_S1x784 := by
  dsimp only [V, hostOps0]; after_results; rfl

/-- Every point is given the fourth bias as one row. -/
theorem blockb4 (c : Dev nD) (t : Fin cfg0.N) (j : Fin 784) :
    iblk m c 9 t (ix2 (0 : Fin 1) j) = m ((c : Thread nD τ).loc main_arg9) (ix1 j) := by
  show V m c main_v3 (((cfg0.win 9).blk t).view.emb (ix2 (0 : Fin 1) j)) = _
  have he : ((cfg0.win 9).blk t).view.emb (ix2 (0 : Fin 1) j) = ix2 (0 : Fin 1) j := by
    refine funext fun a => Fin.ext ?_
    obtain ⟨h1, h2, h3, h4, h5, h6, h7, h8, h9⟩ := idx_whole t
    match a with
    | ⟨0, _⟩ => show win0_9.index t (0 : Fin 2) * 1 + 1 * 0 = 0; omega
    | ⟨1, _⟩ => show win0_9.index t (1 : Fin 2) * 784 + 1 * j.val = j.val; omega
  rw [he, V_main_v3]
  exact shapeCast_a_1a_apply _ _ (0 : Fin 1) j

/-! ## Names for the arguments and for the blocks, at their literal shapes -/

abbrev aX (c : Dev nD) : A8192x784.Idx → EReal := m ((c : Thread nD τ).loc main_arg0)
abbrev aC (c : Dev nD) : A512x32.Idx → EReal := m ((c : Thread nD τ).loc main_arg1)
abbrev aW1 (c : Dev nD) : A784x256.Idx → EReal := m ((c : Thread nD τ).loc main_arg2)
abbrev ab1 (c : Dev nD) : A256.Idx → EReal := m ((c : Thread nD τ).loc main_arg3)
abbrev aW2 (c : Dev nD) : A256x32.Idx → EReal := m ((c : Thread nD τ).loc main_arg4)
abbrev ab2 (c : Dev nD) : A32.Idx → EReal := m ((c : Thread nD τ).loc main_arg5)
abbrev aW3 (c : Dev nD) : A32x256.Idx → EReal := m ((c : Thread nD τ).loc main_arg6)
abbrev ab3 (c : Dev nD) : A256.Idx → EReal := m ((c : Thread nD τ).loc main_arg7)
abbrev aW4 (c : Dev nD) : A256x784.Idx → EReal := m ((c : Thread nD τ).loc main_arg8)
abbrev ab4 (c : Dev nD) : A784.Idx → EReal := m ((c : Thread nD τ).loc main_arg9)

abbrev bX (c : Dev nD) (t : Fin cfg0.N) : Vec Ideal S512x784 .f32 := iblk m c 0 t
abbrev bC (c : Dev nD) (t : Fin cfg0.N) : Vec Ideal S512x32 .f32 := iblk m c 1 t
abbrev bW1 (c : Dev nD) (t : Fin cfg0.N) : Vec Ideal S784x256 .f32 := iblk m c 2 t
abbrev bb1 (c : Dev nD) (t : Fin cfg0.N) : Vec Ideal S1x256 .f32 := iblk m c 3 t
abbrev bW2 (c : Dev nD) (t : Fin cfg0.N) : Vec Ideal S256x32 .f32 := iblk m c 4 t
abbrev bb2 (c : Dev nD) (t : Fin cfg0.N) : Vec Ideal S1x32 .f32 := iblk m c 5 t
abbrev bW3 (c : Dev nD) (t : Fin cfg0.N) : Vec Ideal S32x256 .f32 := iblk m c 6 t
abbrev bb3 (c : Dev nD) (t : Fin cfg0.N) : Vec Ideal S1x256 .f32 := iblk m c 7 t
abbrev bW4 (c : Dev nD) (t : Fin cfg0.N) : Vec Ideal S256x784 .f32 := iblk m c 8 t
abbrev bb4 (c : Dev nD) (t : Fin cfg0.N) : Vec Ideal S1x784 .f32 := iblk m c 9 t

/-! ## A block's row is a row of the input -/

/-- The embedding of row `p` of point `t`'s block is the embedding of row `rowOf t p` of the input. -/
theorem embRow_block (c : Dev nD) (t : Fin cfg0.N) (p : Fin 512) :
    embed (RowSpec.hidden (row (bX m c t) p) (mat (bW1 m c t)) (row (bb1 m c t) 0)) (mat (bW2 m c t)) (row (bb2 m c t) 0)
      = embRow (aX m c) (aW1 m c) (ab1 m c) (aW2 m c) (ab2 m c) (rowOf t p) := by
  have hX : row (bX m c t) p = row (aX m c) (rowOf t p) := funext fun k => blockX m c t p k
  have hW1 : mat (bW1 m c t) = mat (aW1 m c) := congrArg mat (blockW1 m c t)
  have hb1 : row (bb1 m c t) 0 = vec (ab1 m c) := funext fun j => blockb1 m c t j
  have hW2 : mat (bW2 m c t) = mat (aW2 m c) := congrArg mat (blockW2 m c t)
  have hb2 : row (bb2 m c t) 0 = vec (ab2 m c) := funext fun j => blockb2 m c t j
  rw [hX, hW1, hb1, hW2, hb2]
  rfl

/-- The reconstruction of row `p` of point `t`'s block from its embedding `v`. -/
theorem reconRow_block (c : Dev nD) (t : Fin cfg0.N) (v : Fin 32 → EReal) :
    recon (hidden2 v (mat (bW3 m c t)) (row (bb3 m c t) 0)) (mat (bW4 m c t)) (row (bb4 m c t) 0)
      = recon (hidden2 v (mat (aW3 m c)) (vec (ab3 m c))) (mat (aW4 m c)) (vec (ab4 m c)) := by
  have hW3 : mat (bW3 m c t) = mat (aW3 m c) := congrArg mat (blockW3 m c t)
  have hb3 : row (bb3 m c t) 0 = vec (ab3 m c) := funext fun j => blockb3 m c t j
  have hW4 : mat (bW4 m c t) = mat (aW4 m c) := congrArg mat (blockW4 m c t)
  have hb4 : row (bb4 m c t) 0 = vec (ab4 m c) := funext fun j => blockb4 m c t j
  rw [hW3, hb3, hW4, hb4]

/-- The distances of row `p` of point `t`'s block are those of row `rowOf t p` of the input. -/
theorem distRow_block (c : Dev nD) (t : Fin cfg0.N) (p : Fin 512) :
    RowSpec.dist (embed (RowSpec.hidden (row (bX m c t) p) (mat (bW1 m c t)) (row (bb1 m c t) 0)) (mat (bW2 m c t)) (row (bb2 m c t) 0))
        (mat (bC m c t))
      = distRow (aX m c) (aC m c) (aW1 m c) (ab1 m c) (aW2 m c) (ab2 m c) (rowOf t p) := by
  have hC : mat (bC m c t) = mat (aC m c) := congrArg mat (blockC m c t)
  rw [embRow_block, hC]
  rfl

/-! ## What each point writes back, the cover, and the final arrays -/

/-- Point `t` writes back block `t` of the specification's array. -/
theorem flushed13_eq (c : Dev nD) (t : Fin cfg0.N) :
    (dats m 0 c).flushed 13 t = ((cfg0.win 13).blk t).view.read (Elt Ideal) (embArr (aX m c) (aW1 m c) (ab1 m c) (aW2 m c) (ab2 m c)) := by
  rw [Value.flushed13, out13_eq]
  funext y
  obtain ⟨p, e, rfl⟩ : ∃ (p : Fin 512) (e : Fin 32), y = ix2 p e := ⟨y 0, y 1, eq_ix2 y⟩
  show k0_pay1 (bX m c t) (bW1 m c t) (bb1 m c t) (bW2 m c t) (bb2 m c t) (ix2 p e)
      = (embArr (aX m c) (aW1 m c) (ab1 m c) (aW2 m c) (ab2 m c)) (((cfg0.win 13).blk t).view.emb (ix2 p e))
  have he : ((cfg0.win 13).blk t).view.emb (ix2 p e) = ix2 (rowOf t p) e := by
    refine funext fun a => Fin.ext ?_
    obtain ⟨f0, f10, f11, f12, f13⟩ := idx_facts t
    match a with
    | ⟨0, _⟩ => show win0_13.index t (0 : Fin 2) * 512 + 1 * p.val = t.val * 512 + p.val; omega
    | ⟨1, _⟩ => show win0_13.index t (1 : Fin 2) * 32 + 1 * e.val = e.val; omega
  rw [he]
  refine (pay1_apply _ _ _ _ _ p e).trans ?_
  exact congrFun (embRow_block m c t p) e

/-- An index of the result is in point `t`'s block iff each coordinate is in the block's range on its axis. -/
theorem mem_blk13 (t : Fin cfg0.N) (i : S8192x32.Idx) :
    i ∈ ((cfg0.win 13).blk t).view.set ↔ ∀ a : Fin 2, win0_13.index t a * S512x32.size a ≤ (i a).val
      ∧ (i a).val < win0_13.index t a * S512x32.size a + S512x32.size a := by
  show i ∈ ((View.whole main_v4_3).slice (win0_13.rect t)).set ↔ _
  rw [View.set_slice_whole, Rect.mem_set_unit]
  exact Iff.rfl

/-- The blocks tile the result: row `r` is in the block of point `r / 512`. -/
theorem cover13 (i : S8192x32.Idx) :
    ∃ t : Fin cfg0.N, (cfg0.win 13).flush t = true ∧ i ∈ ((cfg0.win 13).blk t).view.set := by
  have hi0 : (i 0).val < 8192 := (i 0).isLt
  have hi1 : (i 1).val < 32 := (i 1).isLt
  have ht : (i 0).val / 512 < cfg0.N := Nat.lt_of_lt_of_eq (by omega : (i 0).val / 512 < 16) N_0.symm
  refine ⟨⟨(i 0).val / 512, ht⟩, flush0_13 _, ?_⟩
  rw [mem_blk13]
  obtain ⟨f0, f10, f11, f12, f13⟩ := idx_facts ⟨(i 0).val / 512, ht⟩
  have hv : (⟨(i 0).val / 512, ht⟩ : Fin cfg0.N).val = (i 0).val / 512 := rfl
  intro a
  match a with
  | ⟨0, _⟩ =>
    show win0_13.index ⟨(i 0).val / 512, ht⟩ (0 : Fin 2) * 512 ≤ (i 0).val
      ∧ (i 0).val < win0_13.index ⟨(i 0).val / 512, ht⟩ (0 : Fin 2) * 512 + 512
    omega
  | ⟨1, _⟩ =>
    show win0_13.index ⟨(i 0).val / 512, ht⟩ (1 : Fin 2) * 32 ≤ (i 1).val
      ∧ (i 1).val < win0_13.index ⟨(i 0).val / 512, ht⟩ (1 : Fin 2) * 32 + 32
    omega

/-- The result array after the run is the specification's. -/
theorem final13 (c : Dev nD) : (dats m 0 c).arrAt 13 cfg0.N = embArr (aX m c) (aW1 m c) (ab1 m c) (aW2 m c) (ab2 m c) :=
  (dats m 0 c).arrAt_eq_of_cover 13 _ (fun t _ => flushed13_eq m c t) cover13

/-- Point `t` writes back block `t` of the specification's array. -/
theorem flushed12_eq (c : Dev nD) (t : Fin cfg0.N) :
    (dats m 0 c).flushed 12 t = ((cfg0.win 12).blk t).view.read (Elt Ideal) (reconArr (aX m c) (aW1 m c) (ab1 m c) (aW2 m c) (ab2 m c) (aW3 m c) (ab3 m c) (aW4 m c) (ab4 m c)) := by
  rw [Value.flushed12, out12_eq]
  funext y
  obtain ⟨p, e, rfl⟩ : ∃ (p : Fin 512) (e : Fin 784), y = ix2 p e := ⟨y 0, y 1, eq_ix2 y⟩
  show k0_pay2 (bX m c t) (bW1 m c t) (bb1 m c t) (bW2 m c t) (bb2 m c t) (bW3 m c t) (bb3 m c t) (bW4 m c t) (bb4 m c t) (ix2 p e)
      = (reconArr (aX m c) (aW1 m c) (ab1 m c) (aW2 m c) (ab2 m c) (aW3 m c) (ab3 m c) (aW4 m c) (ab4 m c)) (((cfg0.win 12).blk t).view.emb (ix2 p e))
  have he : ((cfg0.win 12).blk t).view.emb (ix2 p e) = ix2 (rowOf t p) e := by
    refine funext fun a => Fin.ext ?_
    obtain ⟨f0, f10, f11, f12, f13⟩ := idx_facts t
    match a with
    | ⟨0, _⟩ => show win0_12.index t (0 : Fin 2) * 512 + 1 * p.val = t.val * 512 + p.val; omega
    | ⟨1, _⟩ => show win0_12.index t (1 : Fin 2) * 784 + 1 * e.val = e.val; omega
  rw [he]
  refine (pay2_apply _ _ _ _ _ _ _ _ _ p e).trans ?_
  rw [embRow_block, reconRow_block]
  rfl

/-- An index of the result is in point `t`'s block iff each coordinate is in the block's range on its axis. -/
theorem mem_blk12 (t : Fin cfg0.N) (i : S8192x784.Idx) :
    i ∈ ((cfg0.win 12).blk t).view.set ↔ ∀ a : Fin 2, win0_12.index t a * S512x784.size a ≤ (i a).val
      ∧ (i a).val < win0_12.index t a * S512x784.size a + S512x784.size a := by
  show i ∈ ((View.whole main_v4_2).slice (win0_12.rect t)).set ↔ _
  rw [View.set_slice_whole, Rect.mem_set_unit]
  exact Iff.rfl

/-- The blocks tile the result: row `r` is in the block of point `r / 512`. -/
theorem cover12 (i : S8192x784.Idx) :
    ∃ t : Fin cfg0.N, (cfg0.win 12).flush t = true ∧ i ∈ ((cfg0.win 12).blk t).view.set := by
  have hi0 : (i 0).val < 8192 := (i 0).isLt
  have hi1 : (i 1).val < 784 := (i 1).isLt
  have ht : (i 0).val / 512 < cfg0.N := Nat.lt_of_lt_of_eq (by omega : (i 0).val / 512 < 16) N_0.symm
  refine ⟨⟨(i 0).val / 512, ht⟩, flush0_12 _, ?_⟩
  rw [mem_blk12]
  obtain ⟨f0, f10, f11, f12, f13⟩ := idx_facts ⟨(i 0).val / 512, ht⟩
  have hv : (⟨(i 0).val / 512, ht⟩ : Fin cfg0.N).val = (i 0).val / 512 := rfl
  intro a
  match a with
  | ⟨0, _⟩ =>
    show win0_12.index ⟨(i 0).val / 512, ht⟩ (0 : Fin 2) * 512 ≤ (i 0).val
      ∧ (i 0).val < win0_12.index ⟨(i 0).val / 512, ht⟩ (0 : Fin 2) * 512 + 512
    omega
  | ⟨1, _⟩ =>
    show win0_12.index ⟨(i 0).val / 512, ht⟩ (1 : Fin 2) * 784 ≤ (i 1).val
      ∧ (i 1).val < win0_12.index ⟨(i 0).val / 512, ht⟩ (1 : Fin 2) * 784 + 784
    omega

/-- The result array after the run is the specification's. -/
theorem final12 (c : Dev nD) : (dats m 0 c).arrAt 12 cfg0.N = reconArr (aX m c) (aW1 m c) (ab1 m c) (aW2 m c) (ab2 m c) (aW3 m c) (ab3 m c) (aW4 m c) (ab4 m c) :=
  (dats m 0 c).arrAt_eq_of_cover 12 _ (fun t _ => flushed12_eq m c t) cover12

/-- Point `t` writes back block `t` of the specification's array. -/
theorem flushed11_eq (c : Dev nD) (t : Fin cfg0.N) :
    (dats m 0 c).flushed 11 t = ((cfg0.win 11).blk t).view.read (Elt Ideal) (distArr (aX m c) (aC m c) (aW1 m c) (ab1 m c) (aW2 m c) (ab2 m c)) := by
  rw [Value.flushed11, out11_eq]
  funext y
  obtain ⟨p, e, rfl⟩ : ∃ (p : Fin 512) (e : Fin 512), y = ix2 p e := ⟨y 0, y 1, eq_ix2 y⟩
  show k0_pay5 (k0_pay1 (bX m c t) (bW1 m c t) (bb1 m c t) (bW2 m c t) (bb2 m c t)) (bC m c t) (k0_pay3 (bX m c t) (bW1 m c t) (bb1 m c t) (bW2 m c t) (bb2 m c t)) (k0_pay4 (bC m c t)) (ix2 p e)
      = (distArr (aX m c) (aC m c) (aW1 m c) (ab1 m c) (aW2 m c) (ab2 m c)) (((cfg0.win 11).blk t).view.emb (ix2 p e))
  have he : ((cfg0.win 11).blk t).view.emb (ix2 p e) = ix2 (rowOf t p) e := by
    refine funext fun a => Fin.ext ?_
    obtain ⟨f0, f10, f11, f12, f13⟩ := idx_facts t
    match a with
    | ⟨0, _⟩ => show win0_11.index t (0 : Fin 2) * 512 + 1 * p.val = t.val * 512 + p.val; omega
    | ⟨1, _⟩ => show win0_11.index t (1 : Fin 2) * 512 + 1 * e.val = e.val; omega
  rw [he]
  refine (dist_block _ _ _ _ _ _ p e).trans ?_
  exact congrFun (distRow_block m c t p) e

/-- An index of the result is in point `t`'s block iff each coordinate is in the block's range on its axis. -/
theorem mem_blk11 (t : Fin cfg0.N) (i : S8192x512.Idx) :
    i ∈ ((cfg0.win 11).blk t).view.set ↔ ∀ a : Fin 2, win0_11.index t a * S512x512.size a ≤ (i a).val
      ∧ (i a).val < win0_11.index t a * S512x512.size a + S512x512.size a := by
  show i ∈ ((View.whole main_v4_1).slice (win0_11.rect t)).set ↔ _
  rw [View.set_slice_whole, Rect.mem_set_unit]
  exact Iff.rfl

/-- The blocks tile the result: row `r` is in the block of point `r / 512`. -/
theorem cover11 (i : S8192x512.Idx) :
    ∃ t : Fin cfg0.N, (cfg0.win 11).flush t = true ∧ i ∈ ((cfg0.win 11).blk t).view.set := by
  have hi0 : (i 0).val < 8192 := (i 0).isLt
  have hi1 : (i 1).val < 512 := (i 1).isLt
  have ht : (i 0).val / 512 < cfg0.N := Nat.lt_of_lt_of_eq (by omega : (i 0).val / 512 < 16) N_0.symm
  refine ⟨⟨(i 0).val / 512, ht⟩, flush0_11 _, ?_⟩
  rw [mem_blk11]
  obtain ⟨f0, f10, f11, f12, f13⟩ := idx_facts ⟨(i 0).val / 512, ht⟩
  have hv : (⟨(i 0).val / 512, ht⟩ : Fin cfg0.N).val = (i 0).val / 512 := rfl
  intro a
  match a with
  | ⟨0, _⟩ =>
    show win0_11.index ⟨(i 0).val / 512, ht⟩ (0 : Fin 2) * 512 ≤ (i 0).val
      ∧ (i 0).val < win0_11.index ⟨(i 0).val / 512, ht⟩ (0 : Fin 2) * 512 + 512
    omega
  | ⟨1, _⟩ =>
    show win0_11.index ⟨(i 0).val / 512, ht⟩ (1 : Fin 2) * 512 ≤ (i 1).val
      ∧ (i 1).val < win0_11.index ⟨(i 0).val / 512, ht⟩ (1 : Fin 2) * 512 + 512
    omega

/-- The result array after the run is the specification's. -/
theorem final11 (c : Dev nD) : (dats m 0 c).arrAt 11 cfg0.N = distArr (aX m c) (aC m c) (aW1 m c) (ab1 m c) (aW2 m c) (ab2 m c) :=
  (dats m 0 c).arrAt_eq_of_cover 11 _ (fun t _ => flushed11_eq m c t) cover11

/-- Point `t` writes back block `t` of the specification's array. -/
theorem flushed10_eq (c : Dev nD) (t : Fin cfg0.N) :
    (dats m 0 c).flushed 10 t = ((cfg0.win 10).blk t).view.read (Elt Ideal) (weightedArr (aX m c) (aC m c) (aW1 m c) (ab1 m c) (aW2 m c) (ab2 m c)) := by
  rw [Value.flushed10, out10_eq]
  funext y
  obtain ⟨p, e, rfl⟩ : ∃ (p : Fin 512) (e : Fin 512), y = ix2 p e := ⟨y 0, y 1, eq_ix2 y⟩
  show k0_pay6 (k0_pay1 (bX m c t) (bW1 m c t) (bb1 m c t) (bW2 m c t) (bb2 m c t)) (bC m c t) (k0_pay3 (bX m c t) (bW1 m c t) (bb1 m c t) (bW2 m c t) (bb2 m c t)) (k0_pay4 (bC m c t)) (ix2 p e)
      = (weightedArr (aX m c) (aC m c) (aW1 m c) (ab1 m c) (aW2 m c) (ab2 m c)) (((cfg0.win 10).blk t).view.emb (ix2 p e))
  have he : ((cfg0.win 10).blk t).view.emb (ix2 p e) = ix2 (rowOf t p) e := by
    refine funext fun a => Fin.ext ?_
    obtain ⟨f0, f10, f11, f12, f13⟩ := idx_facts t
    match a with
    | ⟨0, _⟩ => show win0_10.index t (0 : Fin 2) * 512 + 1 * p.val = t.val * 512 + p.val; omega
    | ⟨1, _⟩ => show win0_10.index t (1 : Fin 2) * 512 + 1 * e.val = e.val; omega
  rw [he]
  refine (weighted_block _ _ _ _ _ _ p e).trans ?_
  rw [distRow_block]
  rfl

/-- An index of the result is in point `t`'s block iff each coordinate is in the block's range on its axis. -/
theorem mem_blk10 (t : Fin cfg0.N) (i : S8192x512.Idx) :
    i ∈ ((cfg0.win 10).blk t).view.set ↔ ∀ a : Fin 2, win0_10.index t a * S512x512.size a ≤ (i a).val
      ∧ (i a).val < win0_10.index t a * S512x512.size a + S512x512.size a := by
  show i ∈ ((View.whole main_v4_0).slice (win0_10.rect t)).set ↔ _
  rw [View.set_slice_whole, Rect.mem_set_unit]
  exact Iff.rfl

/-- The blocks tile the result: row `r` is in the block of point `r / 512`. -/
theorem cover10 (i : S8192x512.Idx) :
    ∃ t : Fin cfg0.N, (cfg0.win 10).flush t = true ∧ i ∈ ((cfg0.win 10).blk t).view.set := by
  have hi0 : (i 0).val < 8192 := (i 0).isLt
  have hi1 : (i 1).val < 512 := (i 1).isLt
  have ht : (i 0).val / 512 < cfg0.N := Nat.lt_of_lt_of_eq (by omega : (i 0).val / 512 < 16) N_0.symm
  refine ⟨⟨(i 0).val / 512, ht⟩, flush0_10 _, ?_⟩
  rw [mem_blk10]
  obtain ⟨f0, f10, f11, f12, f13⟩ := idx_facts ⟨(i 0).val / 512, ht⟩
  have hv : (⟨(i 0).val / 512, ht⟩ : Fin cfg0.N).val = (i 0).val / 512 := rfl
  intro a
  match a with
  | ⟨0, _⟩ =>
    show win0_10.index ⟨(i 0).val / 512, ht⟩ (0 : Fin 2) * 512 ≤ (i 0).val
      ∧ (i 0).val < win0_10.index ⟨(i 0).val / 512, ht⟩ (0 : Fin 2) * 512 + 512
    omega
  | ⟨1, _⟩ =>
    show win0_10.index ⟨(i 0).val / 512, ht⟩ (1 : Fin 2) * 512 ≤ (i 1).val
      ∧ (i 1).val < win0_10.index ⟨(i 0).val / 512, ht⟩ (1 : Fin 2) * 512 + 512
    omega

/-- The result array after the run is the specification's. -/
theorem final10 (c : Dev nD) : (dats m 0 c).arrAt 10 cfg0.N = weightedArr (aX m c) (aC m c) (aW1 m c) (ab1 m c) (aW2 m c) (ab2 m c) :=
  (dats m 0 c).arrAt_eq_of_cover 10 _ (fun t _ => flushed10_eq m c t) cover10

/-! ## The run, read -/

/-- Every weakly fair execution of the kernel's program ends with the four result arrays at the specification's
    functions of the arguments, the arguments unchanged. -/
theorem run : θ_run defs (onTc (τ := τ) (main (F := Ideal))) ⟨m, fun _ => 0, ρ⟩ fun r => ∀ c : Dev nD,
      r.2.mem ((c : Thread nD τ).loc main_v4_0) = weightedArr (aX m c) (aC m c) (aW1 m c) (ab1 m c) (aW2 m c) (ab2 m c)
      ∧ r.2.mem ((c : Thread nD τ).loc main_v4_1) = distArr (aX m c) (aC m c) (aW1 m c) (ab1 m c) (aW2 m c) (ab2 m c)
      ∧ r.2.mem ((c : Thread nD τ).loc main_v4_2) = reconArr (aX m c) (aW1 m c) (ab1 m c) (aW2 m c) (ab2 m c) (aW3 m c) (ab3 m c) (aW4 m c) (ab4 m c)
      ∧ r.2.mem ((c : Thread nD τ).loc main_v4_3) = embArr (aX m c) (aW1 m c) (ab1 m c) (aW2 m c) (ab2 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c),
      (h c).2.2.1.trans (final12 m c), (h c).2.2.2.1.trans (final13 m c), (h c).2.2.2.2⟩)
    (Value.run_blocks m ρ)

end Cert.KernelArrays

end
-- ==== Proof.LibMinFold.lean ====
/-
  Minima over one axis at the ideal values, and monotone maps through them.

  * `fold_min_map`: a monotone map of the extended reals commutes with the fold of `min` over any finite set,
    the starting value mapped too: `min` of images is the image of `min` on a linear order.
  * `sqrt_mono`: the ideal square root — the real root on `[0, ∞)`, `⊤` at `⊤`, `⊥` below zero — is monotone on
    ALL extended reals, so clamping at any constant and then taking the root is monotone too (`clampRoot_mono`).
  * `multiReduction_minimumf_single`: a `vector.multi_reduction <minimumf>` over ONE axis, read at a result index, is
    the fold of `min` from the accumulator's value over that axis's coordinates (the `<maximumf>` law's twin).
  * `hostReduce_minimumf_single`: the host's one-operand `stablehlo.reduce` with a `minimum` body over one axis likewise.
  * `ofBits_inf_f32`: the f32 word `0x7F800000` is `⊤`.
-/
import Idealize.ShloMosaic.PureOps.Ideal
import Idealize.ShloMosaic.PureOps.Ideal.Laws
import Idealize.ShloMosaic.PureOps.Reduce

noncomputable section

namespace Cert.MinFold

open Idealize.ShloMosaic

/-- A monotone map commutes with a fold of `min`: the fold of the images from the image of the start is the image of
    the fold. No finiteness, no non-emptiness: on a linear order `f (min a b) = min (f a) (f b)`. -/
theorem fold_min_map {ι : Type*} (s : Finset ι) (f : EReal → EReal) (hf : Monotone f) (c : EReal) (g : ι → EReal) :
    s.fold min (f c) (fun i => f (g i)) = f (s.fold min c g) := by
  classical
  induction s using Finset.induction_on with
  | empty => rfl
  | insert a s ha ih => rw [Finset.fold_insert ha, Finset.fold_insert ha, ih, hf.map_min]

/-- The ideal square root is monotone on the whole extended line: below zero it is the bottom, on `[0, ∞)` the real
    root, at the top the top. -/
theorem sqrt_mono : Monotone Ideal.sqrt := by
  intro a b hab
  induction a using EReal.rec with
  | bot => exact bot_le
  | top =>
    have hb : b = ⊤ := top_le_iff.mp hab
    rw [hb]
  | coe r =>
    induction b using EReal.rec with
    | bot => exact absurd hab (by simp)
    | top => exact le_top
    | coe s =>
      have hrs : r ≤ s := EReal.coe_le_coe_iff.mp hab
      rw [Ideal.sqrt_coe, Ideal.sqrt_coe]
      by_cases hr : r < 0
      · rw [if_pos hr]; exact bot_le
      · have hs : ¬ s < 0 := fun h => hr (lt_of_le_of_lt hrs h)
        rw [if_neg hr, if_neg hs]
        exact EReal.coe_le_coe_iff.mpr (Real.sqrt_le_sqrt hrs)

/-- Clamp from below at a constant, then take the root. -/
def clampRoot (z v : EReal) : EReal := Ideal.sqrt (max v z)

theorem clampRoot_mono (z : EReal) : Monotone (clampRoot z) :=
  fun _ _ h => sqrt_mono (max_le_max h le_rfl)

/-- At the top it is the top, whatever the clamp. -/
theorem clampRoot_top (z : EReal) : clampRoot z ⊤ = ⊤ := by
  unfold clampRoot
  rw [max_eq_left le_top]
  rfl

/-- The minimum of the clamped roots is the clamped root of the minimum, the minima taken from `⊤`. -/
theorem fold_min_clampRoot {ι : Type*} (s : Finset ι) (z : EReal) (g : ι → EReal) :
    s.fold min ⊤ (fun i => clampRoot z (g i)) = clampRoot z (s.fold min ⊤ g) := by
  have h := fold_min_map s (clampRoot z) (clampRoot_mono z) ⊤ g
  rw [clampRoot_top] at h
  exact h

/-- The f32 word of `+∞`. -/
theorem ofBits_inf_f32 : Ideal.ofBits .f32 0x7F800000#32 = ⊤ := by simp [Ideal.ofBits, Ideal.ieee]

variable {φ : FTy}

/-- A float `vector.multi_reduction <minimumf>` over one axis, read at the ideal values: the fold of `min` from the
    accumulator's value over that axis's coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The host's one-operand `stablehlo.reduce` with a `minimum` body over one axis, read at the ideal values: the
    fold of `min` from the initial value over that axis's coordinates. -/
theorem hostReduce_minimumf_single {s t u : Shape} {a : Fin s.rank} (x : FVec Ideal s φ) (init : FVec Ideal u φ)
    (h' : s.ReducesTo [a] t) (h : s.Reduces [a] t) (hu : 0 < u.numel) (j : t.Idx) :
    Host.reduce (FloatOps.minimumf (F := Ideal) (φ := φ)) x init h' hu j
      = (Finset.univ : Finset (Fin (s.size a))).fold min (init (Shape.Idx.first hu)) (x ∘ h.lift j) :=
  Host.reduce_eq_fold_single _ x init h' h hu j

end Cert.MinFold

end
-- ==== Proof.RefRows.lean ====
/-
  The reference program's four results are the specification's arrays.

  Each stage of the reference is read at an index from its operands: a matrix product is a sum of products over the
  contracted coordinate, a broadcast reads its operand at the kept coordinates, a pointwise operation acts on the
  elements, a float sum is its initial word (zero) plus the sum over the reduced coordinate, and the minimum over the
  clusters is the fold of `min` from the word of +∞. Row by row these are the specification's functions.
-/
import proofs.«134649_j86878598463658_2_alg».proof.Proof.Gen.ReferenceIdeal.Read
import proofs.«134649_j86878598463658_2_alg».proof.Proof.Spec
import proofs.«134649_j86878598463658_2_alg».proof.Proof.LibMinFold
import Idealize.ShloMosaic.Lib.ValueIdx
import Idealize.ShloMosaic.PureOps.Ideal.Laws

noncomputable section

open scoped BigOperators

namespace Cert.RefRows

open Cert.ReferenceIdeal Cert.ReferenceIdeal.Gen Cert.ReferenceIdeal.Read Cert.RowSpec
open Idealize.ShloMosaic Idealize.ShloMosaic.ValueIdx Idealize.SL.Sem Idealize.ShloMosaic.StableHlo

/-- The argument types of the reference's stages at the ideal values. -/
abbrev TX := (⟨S8192x784, .f32⟩ : BufTy).Contents (Elt Ideal)
abbrev TC := (⟨S512x32, .f32⟩ : BufTy).Contents (Elt Ideal)
abbrev TW1 := (⟨S784x256, .f32⟩ : BufTy).Contents (Elt Ideal)
abbrev Tb1 := (⟨S256, .f32⟩ : BufTy).Contents (Elt Ideal)
abbrev TW2 := (⟨S256x32, .f32⟩ : BufTy).Contents (Elt Ideal)
abbrev Tb2 := (⟨S32, .f32⟩ : BufTy).Contents (Elt Ideal)
abbrev TW3 := (⟨S32x256, .f32⟩ : BufTy).Contents (Elt Ideal)
abbrev Tb3 := (⟨S256, .f32⟩ : BufTy).Contents (Elt Ideal)
abbrev TW4 := (⟨S256x784, .f32⟩ : BufTy).Contents (Elt Ideal)
abbrev Tb4 := (⟨S784, .f32⟩ : BufTy).Contents (Elt Ideal)

/-- Two indices of a literal shape are equal when their coordinates are (rank one, two, three). -/
local macro "idx_ext1" : tactic =>
  `(tactic| (funext a; apply Fin.ext; match a with | ⟨0, _⟩ => rfl))
local macro "idx_ext2" : tactic =>
  `(tactic| (funext a; apply Fin.ext; match a with | ⟨0, _⟩ => rfl | ⟨1, _⟩ => rfl))
local macro "idx_ext3" : tactic =>
  `(tactic| (funext a; apply Fin.ext; match a with | ⟨0, _⟩ => rfl | ⟨1, _⟩ => rfl | ⟨2, _⟩ => rfl))

/-- The f32 word of zero is the extended real zero. -/
theorem zero_word : (FloatOps.ofBits (F := Ideal) .f32 0x00000000#32 : EReal) = 0 := Ideal.ofBits_zero_f32

/-! ## The encoder -/

/-- The encoder's hidden layer at row `r`, column `j`. -/
theorem v4_row (x0 : TX) (x2 : TW1) (x3 : Tb1) (r : Fin 8192) (j : Fin 256) :
    val_main_v4 (F := Ideal) x0 x2 x3 (ix2 r j) = hidden (row x0 r) (mat x2) (vec x3) j := by
  rw [val_main_v4_apply, val_main_v3_apply, val_main_v0_apply, val_main_v2_apply, val_main_v1_apply,
    val_main_call0_v0_apply, val_main_call0_cst_apply]
  have hl : ∀ k : Fin 784, lidx_main_v0 (ix2 r j) k = ix2 r k := fun k => by idx_ext2
  have hr : ∀ k : Fin 784, ridx_main_v0 (ix2 r j) k = ix2 k j := fun k => by idx_ext2
  have hb : idx_main_v1 (idx_main_v2 (ix2 r j)) = ix1 j := by idx_ext1
  simp only [hl, hr, hb]
  rfl

/-- The embedding at row `r`, coordinate `e`. -/
theorem emb_row (x0 : TX) (x2 : TW1) (x3 : Tb1) (x4 : TW2) (x5 : Tb2) (r : Fin 8192) (e : Fin 32) :
    val_main_v8 (F := Ideal) x0 x2 x3 x4 x5 (ix2 r e) = embRow x0 x2 x3 x4 x5 r e := by
  rw [val_main_v8_apply, val_main_v5_apply, val_main_v7_apply, val_main_v6_apply]
  have hl : ∀ k : Fin 256, lidx_main_v5 (ix2 r e) k = ix2 r k := fun k => by idx_ext2
  have hr : ∀ k : Fin 256, ridx_main_v5 (ix2 r e) k = ix2 k e := fun k => by idx_ext2
  have hb : idx_main_v6 (idx_main_v7 (ix2 r e)) = ix1 e := by idx_ext1
  simp only [hl, hr, hb, v4_row]
  rfl

theorem ref_emb (x0 : TX) (x2 : TW1) (x3 : Tb1) (x4 : TW2) (x5 : Tb2) :
    val_main_v8 (F := Ideal) x0 x2 x3 x4 x5 = embArr x0 x2 x3 x4 x5 := by
  funext i
  obtain ⟨r, e, rfl⟩ : ∃ (r : Fin 8192) (e : Fin 32), i = ix2 r e := ⟨i 0, i 1, eq_ix2 i⟩
  rw [emb_row]
  rfl

/-! ## The decoder -/

/-- The decoder's hidden layer at row `r`, column `j`. -/
theorem v13_row (x0 : TX) (x2 : TW1) (x3 : Tb1) (x4 : TW2) (x5 : Tb2) (x6 : TW3) (x7 : Tb3) (r : Fin 8192) (j : Fin 256) :
    val_main_v13 (F := Ideal) x0 x2 x3 x4 x5 x6 x7 (ix2 r j)
      = hidden2 (embRow x0 x2 x3 x4 x5 r) (mat x6) (vec x7) j := by
  rw [val_main_v13_apply, val_main_v12_apply, val_main_v9_apply, val_main_v11_apply, val_main_v10_apply,
    val_main_call1_v0_apply, val_main_call1_cst_apply]
  have hl : ∀ k : Fin 32, lidx_main_v9 (ix2 r j) k = ix2 r k := fun k => by idx_ext2
  have hr : ∀ k : Fin 32, ridx_main_v9 (ix2 r j) k = ix2 k j := fun k => by idx_ext2
  have hb : idx_main_v10 (idx_main_v11 (ix2 r j)) = ix1 j := by idx_ext1
  simp only [hl, hr, hb, emb_row]
  rfl

/-- The reconstruction at row `r`, pixel `d`. -/
theorem recon_row (x0 : TX) (x2 : TW1) (x3 : Tb1) (x4 : TW2) (x5 : Tb2) (x6 : TW3) (x7 : Tb3) (x8 : TW4) (x9 : Tb4)
    (r : Fin 8192) (d : Fin 784) :
    val_main_v17 (F := Ideal) x0 x2 x3 x4 x5 x6 x7 x8 x9 (ix2 r d)
      = recon (hidden2 (embRow x0 x2 x3 x4 x5 r) (mat x6) (vec x7)) (mat x8) (vec x9) d := by
  rw [val_main_v17_apply, val_main_v14_apply, val_main_v16_apply, val_main_v15_apply]
  have hl : ∀ k : Fin 256, lidx_main_v14 (ix2 r d) k = ix2 r k := fun k => by idx_ext2
  have hr : ∀ k : Fin 256, ridx_main_v14 (ix2 r d) k = ix2 k d := fun k => by idx_ext2
  have hb : idx_main_v15 (idx_main_v16 (ix2 r d)) = ix1 d := by idx_ext1
  simp only [hl, hr, hb, v13_row]
  rfl

theorem ref_recon (x0 : TX) (x2 : TW1) (x3 : Tb1) (x4 : TW2) (x5 : Tb2) (x6 : TW3) (x7 : Tb3) (x8 : TW4) (x9 : Tb4) :
    val_main_v17 (F := Ideal) x0 x2 x3 x4 x5 x6 x7 x8 x9 = reconArr x0 x2 x3 x4 x5 x6 x7 x8 x9 := by
  funext i
  obtain ⟨r, d, rfl⟩ : ∃ (r : Fin 8192) (d : Fin 784), i = ix2 r d := ⟨i 0, i 1, eq_ix2 i⟩
  rw [recon_row]
  rfl

/-! ## The distances to the cluster representatives -/

/-- The squared distance of row `r`'s embedding to cluster `c`. -/
theorem dist_row (x0 : TX) (x1 : TC) (x2 : TW1) (x3 : Tb1) (x4 : TW2) (x5 : Tb2) (r : Fin 8192) (c : Fin 512) :
    val_main_v24 (F := Ideal) x0 x1 x2 x3 x4 x5 (ix2 r c) = distRow x0 x1 x2 x3 x4 x5 r c := by
  rw [val_main_v24_apply, val_main_cst_apply, zero_word, zero_add]
  unfold distRow RowSpec.dist
  refine Finset.sum_congr rfl fun k _ => ?_
  rw [val_main_v23_apply, val_main_v22_apply, val_main_v20_apply, val_main_v18_apply, val_main_v21_apply,
    val_main_v19_apply,
    show idx_main_v18 (idx_main_v20 (idx_main_v24 (ix2 r c) k)) = ix2 r k by idx_ext2,
    show idx_main_v19 (idx_main_v21 (idx_main_v24 (ix2 r c) k)) = ix2 c k by idx_ext2,
    emb_row]
  rfl

theorem ref_dist (x0 : TX) (x1 : TC) (x2 : TW1) (x3 : Tb1) (x4 : TW2) (x5 : Tb2) :
    val_main_v24 (F := Ideal) x0 x1 x2 x3 x4 x5 = distArr x0 x1 x2 x3 x4 x5 := by
  funext i
  obtain ⟨r, c, rfl⟩ : ∃ (r : Fin 8192) (c : Fin 512), i = ix2 r c := ⟨i 0, i 1, eq_ix2 i⟩
  rw [dist_row]
  rfl

/-! ## The softmin-weighted distances -/

/-- The least distance of row `r`: the fold of `min` over the clusters from the word of +∞. -/
theorem least_row (x0 : TX) (x1 : TC) (x2 : TW1) (x3 : Tb1) (x4 : TW2) (x5 : Tb2) (r : Fin 8192) :
    val_main_v25 (F := Ideal) x0 x1 x2 x3 x4 x5 (ix1 r) = least (distRow x0 x1 x2 x3 x4 x5 r) := by
  have h : S8192x512.Reduces [1] S8192 := by decide
  unfold val_main_v25
  rw [Cert.MinFold.hostReduce_minimumf_single _ _ reducesTo_S8192x512_S8192_d1 h h_S_]
  unfold least
  have hf : (val_main_v24 (F := Ideal) x0 x1 x2 x3 x4 x5 ∘ h.lift (ix1 r)) = distRow x0 x1 x2 x3 x4 x5 r := by
    refine funext fun (k : Fin 512) => ?_
    show val_main_v24 (F := Ideal) x0 x1 x2 x3 x4 x5 (h.lift (ix1 r) k) = _
    rw [show h.lift (ix1 r) k = ix2 r k by idx_ext2, dist_row]
  rw [hf]
  rfl

/-- The softmin's unnormalised weight of cluster `c` for row `r`. -/
theorem expo_row (x0 : TX) (x1 : TC) (x2 : TW1) (x3 : Tb1) (x4 : TW2) (x5 : Tb2) (r : Fin 8192) (c : Fin 512) :
    val_main_v31 (F := Ideal) x0 x1 x2 x3 x4 x5 (ix2 r c) = expo (distRow x0 x1 x2 x3 x4 x5 r) c := by
  rw [val_main_v31_apply, val_main_v30_apply, val_main_v29_apply, val_main_cst_1_apply, val_main_v28_apply,
    val_main_v27_apply, val_main_v26_apply,
    show idx_main_v26 (idx_main_v27 (ix2 r c)) = ix1 r by idx_ext1, least_row, dist_row]
  rfl

/-- The softmin-weighted distance of row `r` to cluster `c`. -/
theorem weighted_row (x0 : TX) (x1 : TC) (x2 : TW1) (x3 : Tb1) (x4 : TW2) (x5 : Tb2) (r : Fin 8192) (c : Fin 512) :
    val_main_v36 (F := Ideal) x0 x1 x2 x3 x4 x5 (ix2 r c) = weighted (distRow x0 x1 x2 x3 x4 x5 r) c := by
  rw [val_main_v36_apply, val_main_v35_apply, val_main_v34_apply, val_main_v33_apply,
    show idx_main_v33 (idx_main_v34 (ix2 r c)) = ix1 r by idx_ext1, val_main_v32_apply, val_main_cst_2_apply,
    zero_word, zero_add, dist_row, expo_row]
  have hs : ∀ k : Fin 512, val_main_v31 (F := Ideal) x0 x1 x2 x3 x4 x5 (idx_main_v32 (ix1 r) k)
      = expo (distRow x0 x1 x2 x3 x4 x5 r) k := fun k => by
    rw [show idx_main_v32 (ix1 r) k = ix2 r k by idx_ext2, expo_row]
  simp only [hs]
  rfl

theorem ref_weighted (x0 : TX) (x1 : TC) (x2 : TW1) (x3 : Tb1) (x4 : TW2) (x5 : Tb2) :
    val_main_v36 (F := Ideal) x0 x1 x2 x3 x4 x5 = weightedArr x0 x1 x2 x3 x4 x5 := by
  funext i
  obtain ⟨r, c, rfl⟩ : ∃ (r : Fin 8192) (c : Fin 512), i = ix2 r c := ⟨i 0, i 1, eq_ix2 i⟩
  rw [weighted_row]
  rfl

end Cert.RefRows

end
-- ==== Proof.lean ====
/-
  A batch of 8192 rows goes through a two-layer encoder and a two-layer decoder, its embeddings are compared with 512
  cluster representatives, and the squared distances are weighted by a stable softmin. Four arrays result: the
  weighted distances, the distances, the reconstruction, the embeddings.

  The kernel works the batch in sixteen blocks of 512 rows. Each entry of each result depends on one row of the input
  and on the whole weights, so block by block the kernel leaves the same row functions the reference computes on the
  whole batch: a matrix product into a zero accumulator is the host's contraction, a lane sum is the host's sum from
  the zero word, the minimum over the clusters is a fold of `min` from the word of +∞ on both sides, the distances
  computed in four chunks of 128 clusters and laid side by side are the distances to all 512, and `exp` and the
  quotient are one function on the extended reals on both sides. No law that needs finite entries is used: the two
  sides are the same expression row by row, so the precondition is never opened.

  `Cert.RowSpec` states the row functions and the four arrays; `Cert.KernelArrays.run` is the kernel's run with its
  four result arrays at them, `Cert.RefRows` reads the reference's four result stages as the same arrays.
-/
import proofs.«134649_j86878598463658_2_alg».proof.Defs
import proofs.«134649_j86878598463658_2_alg».proof.Proof.Gen.Kernel
import proofs.«134649_j86878598463658_2_alg».proof.Proof.Gen.Kernel.Skeleton
import proofs.«134649_j86878598463658_2_alg».proof.Proof.Gen.Kernel.Launch
import proofs.«134649_j86878598463658_2_alg».proof.Proof.Gen.Kernel.Points
import proofs.«134649_j86878598463658_2_alg».proof.Proof.Gen.Kernel.Frame
import proofs.«134649_j86878598463658_2_alg».proof.Proof.Gen.KernelIdeal
import proofs.«134649_j86878598463658_2_alg».proof.Proof.Gen.KernelIdeal.Skeleton
import proofs.«134649_j86878598463658_2_alg».proof.Proof.Gen.KernelIdeal.Launch
import proofs.«134649_j86878598463658_2_alg».proof.Proof.Gen.KernelIdeal.Points
import proofs.«134649_j86878598463658_2_alg».proof.Proof.Gen.KernelIdeal.Frame
import proofs.«134649_j86878598463658_2_alg».proof.Proof.Gen.ReferenceIdeal
import proofs.«134649_j86878598463658_2_alg».proof.Proof.Gen.Pre_finite_inputs
import proofs.«134649_j86878598463658_2_alg».proof.Proof.Gen.KernelIdeal.Value
import proofs.«134649_j86878598463658_2_alg».proof.Proof.Gen.ReferenceIdeal.Run
import proofs.«134649_j86878598463658_2_alg».proof.Proof.Gen.ReferenceIdeal.Read
import proofs.«134649_j86878598463658_2_alg».proof.Proof.KernelArrays
import proofs.«134649_j86878598463658_2_alg».proof.Proof.RefRows
import Idealize.ShloMosaic.Adequacy
import Idealize.ShloMosaic.Init

noncomputable section

namespace Cert.Proof

open Idealize.ShloMosaic Idealize.ShloMosaic.TcCoe Idealize.SL.Sem

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run, its four results forgotten. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

/-- From memories that agree on the ten arguments both programs end with the four arrays of the specification. -/
theorem algebraic : Cert.algebraic_KernelIdeal_ReferenceIdeal := by
  intro m ρ m' ρ' _ hagree
  refine ⟨_, _, _, _, Cert.KernelArrays.run m ρ, ?_⟩
  refine (θ_run Cert.ReferenceIdeal.defs _ _).mono (fun _ h c => ?_) (Cert.ReferenceIdeal.Value.run (F := Ideal) m' ρ')
  obtain ⟨g0, g1, g2, g3, g4, g5, g6, g7, g8, g9⟩ := hagree c
  refine ⟨?_, ?_, ?_, ?_, (h c).2.2.2.2⟩
  · refine (h c).1.trans ((Cert.ReferenceIdeal.Read.val_main_v36_eq m' c).trans ?_)
    rw [Cert.RefRows.ref_weighted, g0, g1, g2, g3, g4, g5]
  · refine (h c).2.1.trans ((Cert.ReferenceIdeal.Read.val_main_v24_eq _ _ _ _ _ _).trans ?_)
    rw [Cert.RefRows.ref_dist, g0, g1, g2, g3, g4, g5]
  · refine (h c).2.2.1.trans ((Cert.ReferenceIdeal.Read.val_main_v17_eq _ _ _ _ _ _ _ _ _).trans ?_)
    rw [Cert.RefRows.ref_recon, g0, g2, g3, g4, g5, g6, g7, g8, g9]
  · refine (h c).2.2.2.1.trans ((Cert.ReferenceIdeal.Read.val_main_v8_eq _ _ _ _ _).trans ?_)
    rw [Cert.RefRows.ref_emb, g0, g2, g3, g4, g5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
